-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S128x64 .f32) (main_arg10 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S2000x1 : Shape := ⟨2, ![2000, 1]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 67
  | .vmem => 37
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000x1, .f32⟩
  | .hbm, ⟨17, _⟩ => ⟨S_, .f32⟩
  | .hbm, ⟨18, _⟩ => ⟨S100000x1, .f32⟩
  | .hbm, ⟨19, _⟩ => ⟨S1600000x1, .i32⟩
  | .hbm, ⟨20, _⟩ => ⟨S100000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S1x64, .f32⟩
  | .hbm, ⟨66, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x1, .f32⟩
  | .local _ .vmem, ⟨30, _⟩ => ⟨S2000x1, .f32⟩
  | .local _ .vmem, ⟨31, _⟩ => ⟨S2000x128, .f32⟩
  | .local _ .vmem, ⟨32, _⟩ => ⟨S2000x128, .f32⟩
  | .local _ .vmem, ⟨33, _⟩ => ⟨S128x64, .f32⟩
  | .local _ .vmem, ⟨34, _⟩ => ⟨S1x64, .f32⟩
  | .local _ .vmem, ⟨35, _⟩ => ⟨S2000x64, .f32⟩
  | .local _ .vmem, ⟨36, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S100000x64.size a
  hwx3_5 : ∀ i : grid3.Coords, EltTy.bits .f32 = 32 ∨ (Rect.block (s := S100000x64) S2000x64.size (cc3_transform_5 i) (hinb3_5 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v17) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v42) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000x1, .f32⟩
  | .hbm, ⟨30, _⟩ => ⟨S_, .f32⟩
  | .hbm, ⟨31, _⟩ => ⟨S100000x1, .f32⟩
  | .hbm, ⟨32, _⟩ => ⟨S1600000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000x1, .f32⟩
  | .hbm, ⟨61, _⟩ => ⟨S_, .f32⟩
  | .hbm, ⟨62, _⟩ => ⟨S100000x1, .f32⟩
  | .hbm, ⟨63, _⟩ => ⟨S1600000x1, .i32⟩
  | .hbm, ⟨64, _⟩ => ⟨S100000x1, .f32⟩
  | .hbm, ⟨65, _⟩ => ⟨S_, .f32⟩
  | .hbm, ⟨66, _⟩ => ⟨S100000x1, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S_, .f32⟩
  | .hbm, ⟨91, _⟩ => ⟨S1600000x1, .f32⟩
  | .hbm, ⟨92, _⟩ => ⟨S_, .f32⟩
  | .hbm, ⟨93, _⟩ => ⟨S100000x1, .f32⟩
  | .hbm, ⟨94, _⟩ => ⟨S1600000x1, .i32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S100000x64, .f32⟩
  | .hbm, ⟨102, _⟩ => ⟨S100000x64, .f32⟩
  | .hbm, ⟨103, _⟩ => ⟨S100000x64, .f32⟩
  | .hbm, ⟨104, _⟩ => ⟨S1x64, .f32⟩
  | .hbm, ⟨105, _⟩ => ⟨S100000x64, .f32⟩
  | .hbm, ⟨106, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibHostForms.lean ====
/-
  Readings, at an entry, of host operations that spread a vector over a matrix or multiply two matrices, for any
  sizes.

  * A length-`a` vector laid out as an `a × 1` column (a broadcast along a new unit axis) and then spread over `b`
    columns reads, at `(p, q)`, the vector at `p`.
  * A length-`b` vector laid out as a `1 × b` row and then spread over `a` rows reads, at `(p, q)`, the vector at `q`.
  * The two steps of the first one at a time; the host's logarithm at an entry; the zero word added to a sum.
  * A scalar spread over any shape reads the scalar at every entry.
  * The host's matrix product of an `M × K` table with a `K × N` matrix, for any dimension numbers that contract the
    left columns with the right rows and batch nothing, reads at `(p, q)` the sum over `c` of
    `A (p, c) * B (c, q)` over the extended reals.
-/
import Idealize.ShloMosaic.Lib.Pipeline.Value
import Idealize.ShloMosaic.Lib.ValueIdx
import Idealize.ShloMosaic.PureOps.Ideal.Laws

noncomputable section

open scoped BigOperators

namespace Cert.Lib.HostForms

open Idealize.ShloMosaic Idealize.ShloMosaic.ValueIdx

variable {α : Type}

/-- A vector kept as a column and spread along the rows reads, at `(p, q)`, the vector at `p`. -/
theorem bcast_col_chain_apply {a b : ℕ} (d : (⟨1, ![a]⟩ : Shape).Idx → α)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 (broadcastInDim ⟨2, ![a, 1]⟩ ![0] h1 d) (ix2 p q) = d (ix1 p) := by
  refine (broadcastInDim_apply ![0, 1] h2 _ (ix2 p q) (ix2 p (0 : Fin 1)) fun ax => ?_).trans
    (broadcastInDim_apply ![0] h1 d (ix2 p (0 : Fin 1)) (ix1 p) fun ax => ?_)
  · match ax with
    | ⟨0, _⟩ =>
      show p.val = if a = 1 then 0 else p.val
      split
      · have := p.isLt; omega
      · rfl
    | ⟨1, _⟩ =>
      show (0 : ℕ) = if (1 : ℕ) = 1 then 0 else q.val
      rw [if_pos rfl]
  · match ax with
    | ⟨0, _⟩ =>
      show p.val = if a = 1 then 0 else p.val
      split
      · have := p.isLt; omega
      · rfl

/-- A vector kept as a row and spread down the rows reads, at `(p, q)`, the vector at `q`. -/
theorem bcast_row_chain_apply {a b : ℕ} (v : (⟨1, ![b]⟩ : Shape).Idx → α)
    (h1 : (⟨1, ![b]⟩ : Shape).BroadcastsInDim ⟨2, ![1, b]⟩ (![1] : Fin 1 → Fin (⟨2, ![1, b]⟩ : Shape).rank))
    (h2 : (⟨2, ![1, b]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 (broadcastInDim ⟨2, ![1, b]⟩ ![1] h1 v) (ix2 p q) = v (ix1 q) := by
  refine (broadcastInDim_apply ![0, 1] h2 _ (ix2 p q) (ix2 (0 : Fin 1) q) fun ax => ?_).trans
    (broadcastInDim_apply ![1] h1 v (ix2 (0 : Fin 1) q) (ix1 q) fun ax => ?_)
  · match ax with
    | ⟨0, _⟩ =>
      show (0 : ℕ) = if (1 : ℕ) = 1 then 0 else p.val
      rw [if_pos rfl]
    | ⟨1, _⟩ =>
      show q.val = if b = 1 then 0 else q.val
      split
      · have := q.isLt; omega
      · rfl
  · match ax with
    | ⟨0, _⟩ =>
      show q.val = if b = 1 then 0 else q.val
      split
      · have := q.isLt; omega
      · rfl

/-- An `a × 1` column spread over `b` columns reads, at `(p, q)`, the column's entry of row `p`. -/
theorem bcast_col_spread_apply {a b : ℕ} (v : (⟨2, ![a, 1]⟩ : Shape).Idx → α)
    (h2 : (⟨2, ![a, 1]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 v (ix2 p q) = v (ix2 p (0 : Fin 1)) := by
  refine broadcastInDim_apply ![0, 1] h2 v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A length-`a` vector kept as an `a × 1` column reads, at `(p, u)`, the vector at `p`. -/
theorem bcast_vec_col_apply {a : ℕ} (d : (⟨1, ![a]⟩ : Shape).Idx → α)
    (h1 : (⟨1, ![a]⟩ : Shape).BroadcastsInDim ⟨2, ![a, 1]⟩ (![0] : Fin 1 → Fin (⟨2, ![a, 1]⟩ : Shape).rank))
    (p : Fin a) (u : Fin 1) :
    broadcastInDim ⟨2, ![a, 1]⟩ ![0] h1 d (ix2 p u) = d (ix1 p) := by
  refine broadcastInDim_apply ![0] h1 d (ix2 p u) (ix1 p) fun ax => ?_
  match ax with
  | ⟨0, _⟩ =>
    show p.val = if a = 1 then 0 else p.val
    split
    · have := p.isLt; omega
    · rfl

/-- The host's logarithm of a vector read at an entry. -/
theorem hostLog_apply {s : Shape} {φ : FTy} (x : FVec Ideal s φ) (i : s.Idx) : Host.log x i = Ideal.log (x i) := rfl

/-- The zero word in front of a sum adds nothing. -/
theorem zero_word_add (v : FVec Ideal ⟨0, ![]⟩ .f32) (hv : v = constant (F := Ideal) ⟨0, ![]⟩ .f32 0x00000000#32)
    (j : (⟨0, ![]⟩ : Shape).Idx) (s : EReal) : v j + s = s := by
  subst hv
  show Ideal.ofBits .f32 0x00000000#32 + s = s
  rw [Ideal.ofBits_zero_f32, zero_add]

/-- A scalar spread over any shape reads, at every entry, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

/-- The host's product of an `M × K` table with a `K × N` matrix reads, at `(p, q)`, the sum over the shared axis. -/
theorem plain_dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    Host.dotGeneral D prec A B (ix2 p q) = ∑ c : Fin K, A (ix2 p c) * B (ix2 c q) := by
  subst hD
  show FloatOps.dotGeneral (DotDims.plain M K N) prec .single A B (ix2 p q) = _
  rw [Ideal.dotGeneral_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

end Cert.Lib.HostForms

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LibSageLayer.lean ====
/-
  One layer of a mean-aggregating graph convolution read at an entry, for any sizes.

  For a table `M` of summed neighbour rows, a table `X` of the nodes' own rows (both `n × k`), a count `d` per node,
  two `k × c` weight matrices `Wl`, `Wr` and a bias `b` of length `c`, the layer's entry `(p, q)` is

      (∑ⱼ (M p j / max (d p) one) · Wl j q  +  ∑ⱼ X p j · Wr j q)  +  b q

  over the extended reals (`sageAt`).  It reads `M`, `X` and `d` at row `p` only and the weights and the bias at column
  `q` only (`sageAt_congr`), so a block of rows of the layer is the layer of the blocks of rows.  Two spellings are that
  entry: a kernel body's (the count kept as an `n × 1` column, floored at the word `one` and spread along the row; the
  quotient and the own rows narrowed to a shorter float format, which changes nothing over the extended reals; two
  matrix products accumulated from zero; the bias kept as a `1 × c` row and spread down the rows), and a host
  program's (the count a vector, floored against the spread scalar, kept as a column, spread; plain `dot_general`s; the
  bias vector kept as a row and spread).  Two small layout readings sit beside them: a `1 × b` row spread down the rows,
  and a length-`b` vector re-laid as a `1 × b` row.
-/
import Idealize.ShloMosaic.Lib.Pipeline.Value
import Idealize.ShloMosaic.Lib.ValueIdx
import Idealize.ShloMosaic.PureOps.Ideal.Laws
import proofs.«131360_j60610578481667_2_alg».proof.Proof.LibHostForms
import proofs.«131360_j60610578481667_2_alg».proof.Proof.LibTwoBlocks
import proofs.«131360_j60610578481667_2_alg».proof.Proof.LibRowOps

noncomputable section

open scoped BigOperators

namespace Cert.Lib.SageLayer

open Idealize.ShloMosaic Idealize.ShloMosaic.ValueIdx

/-- Entry `(p, q)` of the layer: the neighbours' mean row times `Wl`, plus the node's own row times `Wr`, plus the bias. -/
def sageAt {n k c : ℕ} (M X : (⟨2, ![n, k]⟩ : Shape).Idx → EReal) (d : Fin n → EReal)
    (Wl Wr : (⟨2, ![k, c]⟩ : Shape).Idx → EReal) (b : Fin c → EReal) (one : EReal) (p : Fin n) (q : Fin c) : EReal :=
  (∑ j : Fin k, Ideal.div (M (ix2 p j)) (max (d p) one) * Wl (ix2 j q) + ∑ j : Fin k, X (ix2 p j) * Wr (ix2 j q)) + b q

/-- The entry depends on the two tables and the count through row `p` only, and on the weights and the bias through
    column `q` only: two sets of operands that agree there give the same entry (the row numbers may differ, as for a
    block of rows against the whole table). -/
theorem sageAt_congr {n n' k c : ℕ} {M X : (⟨2, ![n, k]⟩ : Shape).Idx → EReal} {M' X' : (⟨2, ![n', k]⟩ : Shape).Idx → EReal}
    {d : Fin n → EReal} {d' : Fin n' → EReal} {Wl Wr Wl' Wr' : (⟨2, ![k, c]⟩ : Shape).Idx → EReal} {b b' : Fin c → EReal}
    (one : EReal) {p : Fin n} {p' : Fin n'} (q : Fin c)
    (hM : ∀ j, M (ix2 p j) = M' (ix2 p' j)) (hX : ∀ j, X (ix2 p j) = X' (ix2 p' j)) (hd : d p = d' p')
    (hWl : ∀ j, Wl (ix2 j q) = Wl' (ix2 j q)) (hWr : ∀ j, Wr (ix2 j q) = Wr' (ix2 j q)) (hb : b q = b' q) :
    sageAt M X d Wl Wr b one p q = sageAt M' X' d' Wl' Wr' b' one p' q := by
  unfold sageAt
  rw [hd, hb]
  refine congrArg (· + b' q) (congrArg₂ (· + ·) (Finset.sum_congr rfl fun j _ => ?_) (Finset.sum_congr rfl fun j _ => ?_))
  · rw [hM j, hWl j]
  · rw [hX j, hWr j]

/-- A `1 × b` row spread down `a` rows reads, at `(p, q)`, the row's entry of column `q`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A length-`b` vector re-laid as a `1 × b` row reads, at `(0, q)`, the vector at `q`. -/
theorem shapeCast_vec_row_apply {α : Type} {b : ℕ} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) := by
  refine shapeCast_apply v h (ix2 (0 : Fin 1) q) (ix1 q) ?_
  rw [Shape.rowMajor_val_one, Shape.rowMajor_val_two]
  show q.val = 0 * b + q.val
  omega

/-- THE KERNEL BODY'S SPELLING of the layer on a block of `a` rows, read at `(p, q)`. -/
theorem body_apply {a k c : ℕ} (D : DotDims ⟨2, ![a, k]⟩ ⟨2, ![k, c]⟩ ⟨2, ![a, c]⟩) (hD : D = DotDims.plain a k c)
    (M X : FVec Ideal ⟨2, ![a, k]⟩ .f32) (dcol : FVec Ideal ⟨2, ![a, 1]⟩ .f32) (Wl Wr : FVec Ideal ⟨2, ![k, c]⟩ .f32)
    (brow : FVec Ideal ⟨2, ![1, c]⟩ .f32) (one : BitVec 32) (h16 : (FTy.bf16).bits < (FTy.f32).bits)
    (hb1 : (⟨2, ![a, 1]⟩ : Shape).Broadcasts ⟨2, ![a, k]⟩) (hb2 : (⟨2, ![1, c]⟩ : Shape).Broadcasts ⟨2, ![a, c]⟩)
    (p : Fin a) (q : Fin c) :
    addf (addf
        (matmul D none
          (truncf .bf16 (divf M (broadcastTo ⟨2, ![a, k]⟩ (maximumf dcol (broadcast ⟨2, ![a, 1]⟩ (Scalar.ofBits (F := Ideal) .f32 one))) hb1)) h16)
          (truncf .bf16 Wl h16) (constant ⟨2, ![a, c]⟩ .f32 0x00000000#32))
        (matmul D none (truncf .bf16 X h16) (truncf .bf16 Wr h16) (constant ⟨2, ![a, c]⟩ .f32 0x00000000#32)))
      (broadcastTo ⟨2, ![a, c]⟩ brow hb2) (ix2 p q)
    = sageAt M X (fun r => dcol (ix2 r (0 : Fin 1))) Wl Wr (fun s => brow (ix2 (0 : Fin 1) s)) (Ideal.ofBits .f32 one) p q := by
  show (matmul D none _ _ _ (ix2 p q) + matmul D none _ _ _ (ix2 p q)) + broadcastTo ⟨2, ![a, c]⟩ brow hb2 (ix2 p q) = _
  rw [TwoBlocks.plain_matmul_zero_apply D hD none _ _ p q, TwoBlocks.plain_matmul_zero_apply D hD none _ _ p q,
    broadcastTo_1b_ab_apply brow hb2 p q]
  unfold sageAt
  refine congrArg (· + brow (ix2 (0 : Fin 1) q)) (congrArg₂ (· + ·) (Finset.sum_congr rfl fun j _ => ?_) rfl)
  show Ideal.div (M (ix2 p j)) (broadcastTo ⟨2, ![a, k]⟩ (maximumf dcol (broadcast ⟨2, ![a, 1]⟩ (Scalar.ofBits (F := Ideal) .f32 one))) hb1 (ix2 p j))
      * Wl (ix2 j q) = _
  rw [RowOps.broadcastTo_a1_ab_apply _ hb1 p j]
  rfl

/-- THE HOST PROGRAM'S SPELLING of the layer on whole tables, read at `(p, q)`. -/
theorem host_apply {n k c : ℕ} (D : DotDims ⟨2, ![n, k]⟩ ⟨2, ![k, c]⟩ ⟨2, ![n, c]⟩) (hD : D = DotDims.plain n k c)
    (M X : FVec Ideal ⟨2, ![n, k]⟩ .f32) (d : FVec Ideal ⟨1, ![n]⟩ .f32) (Wl Wr : FVec Ideal ⟨2, ![k, c]⟩ .f32)
    (b : FVec Ideal ⟨1, ![c]⟩ .f32) (one : BitVec 32)
    (h0 : (⟨0, ![]⟩ : Shape).BroadcastsInDim ⟨1, ![n]⟩ (![] : Fin 0 → Fin (⟨1, ![n]⟩ : Shape).rank))
    (h1 : (⟨1, ![n]⟩ : Shape).BroadcastsInDim ⟨2, ![n, 1]⟩ (![0] : Fin 1 → Fin (⟨2, ![n, 1]⟩ : Shape).rank))
    (h2 : (⟨2, ![n, 1]⟩ : Shape).BroadcastsInDim ⟨2, ![n, k]⟩ (![0, 1] : Fin 2 → Fin (⟨2, ![n, k]⟩ : Shape).rank))
    (h3 : (⟨1, ![c]⟩ : Shape).BroadcastsInDim ⟨2, ![1, c]⟩ (![1] : Fin 1 → Fin (⟨2, ![1, c]⟩ : Shape).rank))
    (h4 : (⟨2, ![1, c]⟩ : Shape).BroadcastsInDim ⟨2, ![n, c]⟩ (![0, 1] : Fin 2 → Fin (⟨2, ![n, c]⟩ : Shape).rank))
    (p : Fin n) (q : Fin c) :
    addf (addf
        (Host.dotGeneral D none
          (Host.divf (F := Ideal) M (broadcastInDim ⟨2, ![n, k]⟩ ![0, 1] h2 (broadcastInDim ⟨2, ![n, 1]⟩ ![0] h1
            (maximumf d (broadcastInDim ⟨1, ![n]⟩ ![] h0 (constant (F := Ideal) ⟨0, ![]⟩ .f32 one)))))) Wl)
        (Host.dotGeneral D none X Wr))
      (broadcastInDim ⟨2, ![n, c]⟩ ![0, 1] h4 (broadcastInDim ⟨2, ![1, c]⟩ ![1] h3 b)) (ix2 p q)
    = sageAt M X (fun r => d (ix1 r)) Wl Wr (fun s => b (ix1 s)) (Ideal.ofBits .f32 one) p q := by
  show (Host.dotGeneral D none _ Wl (ix2 p q) + Host.dotGeneral D none X Wr (ix2 p q))
      + broadcastInDim ⟨2, ![n, c]⟩ ![0, 1] h4 (broadcastInDim ⟨2, ![1, c]⟩ ![1] h3 b) (ix2 p q) = _
  rw [HostForms.plain_dotGeneral_apply D hD none _ Wl p q, HostForms.plain_dotGeneral_apply D hD none X Wr p q,
    HostForms.bcast_row_chain_apply b h3 h4 p q]
  unfold sageAt
  refine congrArg (· + b (ix1 q)) (congrArg₂ (· + ·) (Finset.sum_congr rfl fun j _ => ?_) rfl)
  show Ideal.div (M (ix2 p j)) (broadcastInDim ⟨2, ![n, k]⟩ ![0, 1] h2 (broadcastInDim ⟨2, ![n, 1]⟩ ![0] h1
      (maximumf d (broadcastInDim ⟨1, ![n]⟩ ![] h0 (constant (F := Ideal) ⟨0, ![]⟩ .f32 one)))) (ix2 p j)) * Wl (ix2 j q) = _
  rw [HostForms.bcast_col_chain_apply _ h1 h2 p j]
  show Ideal.div (M (ix2 p j)) (max (d (ix1 p)) (broadcastInDim ⟨1, ![n]⟩ ![] h0 (constant (F := Ideal) ⟨0, ![]⟩ .f32 one) (ix1 p)))
      * Wl (ix2 j q) = _
  rw [HostForms.bcast_scalar_apply _ h0 (ix1 p)]
  rfl

end Cert.Lib.SageLayer

end
-- ==== Proof.Spec.lean ====
/-
  What the three-layer graph convolution computes, as pure functions over the extended reals.

  The graph is an edge list `ei` of two rows of 1 600 000 node numbers: row 0 names each edge's source, row 1 its target.
  `aggregate` looks up the table's row at every edge's source (a negative number wraps round by the table's height, the
  result is clamped into the table) and adds that row into the target's row of a zero table; `degree` adds a one per edge
  into the target's entry of a zero column.  A dense layer's entry `(p, q)` is
  `tanh ((∑ⱼ S p j / max (deg p) 1 · Wl j q + ∑ⱼ X p j · Wr j q) + b q)`; the last layer is computed in another
  arrangement, `project` first (`H · Wl`), aggregated 64 wide, then
  `(∑ⱼ H p j · Wr j q + S₂ p q / max (deg p) 1) + b q`.
-/
import proofs.«131360_j60610578481667_2_alg».proof.KernelIdeal
import proofs.«131360_j60610578481667_2_alg».proof.Proof.Gen.KernelIdeal
import proofs.«131360_j60610578481667_2_alg».proof.Proof.LibSageLayer
import Idealize.ShloMosaic.PureOps.Ideal

noncomputable section

open scoped BigOperators

namespace Cert.Sage

open Idealize.ShloMosaic Idealize.ShloMosaic.ValueIdx Cert.KernelIdeal Cert.KernelIdeal.Gen Cert.Lib.SageLayer

/-- The f32 word of one, as an extended real. -/
abbrev oneW : EReal := Ideal.ofBits .f32 0x3F800000#32

/-! ## The edge list's two columns, the degrees, the neighbour sums -/

/-- Each edge's source node number. -/
def srcVec (ei : IVec S2x1600000 32) : IVec S1600000 32 :=
  shapeCast S1600000 (extractStridedSlice S1x1600000 ![0, 0] ei slices_S2x1600000_S1x1600000_0_0) shapeCasts_S1x1600000_S1600000

/-- Each edge's target node number. -/
def dstVec (ei : IVec S2x1600000 32) : IVec S1600000 32 :=
  shapeCast S1600000 (extractStridedSlice S1x1600000 ![1, 0] ei slices_S2x1600000_S1x1600000_1_0) shapeCasts_S1x1600000_S1600000

/-- The targets as a column of positions. -/
def dstColOf (dst : IVec S1600000 32) : IVec S1600000x1 32 :=
  broadcastInDim S1600000x1 ![0] bcast_S1600000_S1600000x1_0 dst

/-- The sources as a column of positions, a negative number wrapped round by the table's height. -/
def srcColOf (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The number of edges into each node, as a column: a one added per edge at its target. -/
def degreeOf (dst : IVec S1600000 32) : FVec Ideal S100000x1 .f32 :=
  Host.scatterAdd (F := Ideal) scatter_S100000x1_S1600000x1_S1600000x1_1_0_0_1
    (broadcastInDim S100000x1 ![] bcast_S_S100000x1 (constant (F := Ideal) S_ .f32 0x00000000#32)) (dstColOf dst)
    (broadcastInDim S1600000x1 ![] bcast_S_S1600000x1 (constant (F := Ideal) S_ .f32 0x3F800000#32))

/-- The neighbour sums of a 128-wide table: every edge adds its source's row into its target's row. -/
def agg128Of (src dst : IVec S1600000 32) (T : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (dstColOf dst)
    (Host.gather gather_S100000x128_S1600000x1_S1600000x128_1_0_n_n_0_1_1128 T (srcColOf src))

/-- The neighbour sums of a 64-wide table. -/
def agg64Of (src dst : IVec S1600000 32) (T : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (dstColOf dst)
    (Host.gather gather_S100000x64_S1600000x1_S1600000x64_1_0_n_n_0_1_164 T (srcColOf src))

/-- The degrees of an edge list. -/
def degree (ei : IVec S2x1600000 32) : FVec Ideal S100000x1 .f32 := degreeOf (dstVec ei)

/-- The neighbour sums of a 128-wide table over an edge list. -/
def aggregate128 (ei : IVec S2x1600000 32) (T : FVec Ideal S100000x128 .f32) : FVec Ideal S100000x128 .f32 :=
  agg128Of (srcVec ei) (dstVec ei) T

/-- The neighbour sums of a 64-wide table over an edge list. -/
def aggregate64 (ei : IVec S2x1600000 32) (T : FVec Ideal S100000x64 .f32) : FVec Ideal S100000x64 .f32 :=
  agg64Of (srcVec ei) (dstVec ei) T

/-! ## The layers, entry by entry -/

/-- Entry `(p, q)` of a dense layer with the hyperbolic tangent on top. -/
def denseAt (S : FVec Ideal S100000x128 .f32) (deg : FVec Ideal S100000x1 .f32) (X : FVec Ideal S100000x128 .f32)
    (Wl Wr : FVec Ideal S128x128 .f32) (brow : FVec Ideal S1x128 .f32) (p : Fin 100000) (q : Fin 128) : EReal :=
  Ideal.tanh (sageAt (n := 100000) (k := 128) (c := 128) S X (fun r => deg (ix2 r (0 : Fin 1))) Wl Wr
    (fun s => brow (ix2 (0 : Fin 1) s)) oneW p q)

/-- A dense layer as a whole table. -/
def dense (S : FVec Ideal S100000x128 .f32) (deg : FVec Ideal S100000x1 .f32) (X : FVec Ideal S100000x128 .f32)
    (Wl Wr : FVec Ideal S128x128 .f32) (brow : FVec Ideal S1x128 .f32) : FVec Ideal S100000x128 .f32 :=
  fun i => denseAt S deg X Wl Wr brow (i 0) (i 1)

/-- Entry `(p, q)` of the product of a 128-wide table with a 128 × 64 matrix. -/
def projectAt (H : FVec Ideal S100000x128 .f32) (W : FVec Ideal S128x64 .f32) (p : Fin 100000) (q : Fin 64) : EReal :=
  ∑ j : Fin 128, H (ix2 p j) * W (ix2 j q)

/-- The product as a whole table. -/
def project (H : FVec Ideal S100000x128 .f32) (W : FVec Ideal S128x64 .f32) : FVec Ideal S100000x64 .f32 :=
  fun i => projectAt H W (i 0) (i 1)

/-- Entry `(p, q)` of the last layer in the arrangement that aggregates after projecting. -/
def combineAt (S2 : FVec Ideal S100000x64 .f32) (deg : FVec Ideal S100000x1 .f32) (H : FVec Ideal S100000x128 .f32)
    (Wr : FVec Ideal S128x64 .f32) (brow : FVec Ideal S1x64 .f32) (p : Fin 100000) (q : Fin 64) : EReal :=
  (∑ j : Fin 128, H (ix2 p j) * Wr (ix2 j q) + Ideal.div (S2 (ix2 p q)) (max (deg (ix2 p (0 : Fin 1))) oneW))
    + brow (ix2 (0 : Fin 1) q)

/-- The last layer as a whole table. -/
def combine (S2 : FVec Ideal S100000x64 .f32) (deg : FVec Ideal S100000x1 .f32) (H : FVec Ideal S100000x128 .f32)
    (Wr : FVec Ideal S128x64 .f32) (brow : FVec Ideal S1x64 .f32) : FVec Ideal S100000x64 .f32 :=
  fun i => combineAt S2 deg H Wr brow (i 0) (i 1)

/-- The whole network in the arrangement that projects the last layer before aggregating it. -/
def network (x : FVec Ideal S100000x128 .f32) (ei : IVec S2x1600000 32) (Wl0 Wr0 : FVec Ideal S128x128 .f32)
    (b0 : FVec Ideal S128 .f32) (Wl1 Wr1 : FVec Ideal S128x128 .f32) (b1 : FVec Ideal S128 .f32)
    (Wl2 Wr2 : FVec Ideal S128x64 .f32) (b2 : FVec Ideal S64 .f32) : FVec Ideal S100000x64 .f32 :=
  let h0 := dense (aggregate128 ei x) (degree ei) x Wl0 Wr0 (shapeCast S1x128 b0 shapeCasts_S128_S1x128)
  let h1 := dense (aggregate128 ei h0) (degree ei) h0 Wl1 Wr1 (shapeCast S1x128 b1 shapeCasts_S128_S1x128)
  combine (aggregate64 ei (project h1 Wl2)) (degree ei) h1 Wr2 (shapeCast S1x64 b2 shapeCasts_S64_S1x64)

end Cert.Sage

end
-- ==== Proof.Bodies.lean ====
/-
  The four kernel bodies read at an entry of their block, over the extended reals.

  Each body computes its 2000-row block from the blocks it loads.  A dense layer's body gives, at row `p` and column `q`,
  `tanh ((∑ⱼ S p j / max (deg p) 1 · Wl j q + ∑ⱼ X p j · Wr j q) + b q)` — narrowing an operand to a shorter float format
  changes nothing over the extended reals, and a matrix product accumulated from zero is the plain sum over the shared
  axis.  The projection's body gives `∑ⱼ H p j · W j q`, and the combining body
  `(∑ⱼ H p j · Wr j q + S₂ p q / max (deg p) 1) + b q`.
-/
import proofs.«131360_j60610578481667_2_alg».proof.Proof.Gen.KernelIdeal.Skeleton
import proofs.«131360_j60610578481667_2_alg».proof.Proof.Spec
import proofs.«131360_j60610578481667_2_alg».proof.Proof.LibSageLayer
import proofs.«131360_j60610578481667_2_alg».proof.Proof.LibTwoBlocks
import proofs.«131360_j60610578481667_2_alg».proof.Proof.LibRowOps
import Idealize.ShloMosaic.Lib.Pipeline.Value

noncomputable section

open scoped BigOperators

namespace Cert.Sage.Body

open Idealize.ShloMosaic Idealize.ShloMosaic.ValueIdx Cert.KernelIdeal Cert.KernelIdeal.Gen Cert.Lib Cert.Lib.SageLayer Cert.Sage

/-- The first dense layer's body at `(p, q)` of its block. -/
theorem pay0_apply (v0 : FVec Ideal S2000x1 .f32) (v2 v9 : FVec Ideal S2000x128 .f32) (v11 v13 : FVec Ideal S128x128 .f32)
    (v18 : FVec Ideal S1x128 .f32) (p : Fin 2000) (q : Fin 128) :
    k0_pay1 (F := Ideal) v0 v2 v9 v11 v13 v18 (ix2 p q)
      = Ideal.tanh (sageAt (n := 2000) (k := 128) (c := 128) v2 v9 (fun r => v0 (ix2 r (0 : Fin 1))) v11 v13
          (fun s => v18 (ix2 (0 : Fin 1) s)) oneW p q) := by
  unfold k0_pay1
  simp only [shapeCast_self]
  exact congrArg Ideal.tanh (body_apply dot_S2000x128_S128x128_S2000x128_1_0_0_1_n_n rfl v2 v9 v0 v11 v13 v18 0x3F800000#32
    bitsLt_bf16_f32 broadcasts_S2000x1_S2000x128 broadcasts_S1x128_S2000x128 p q)

/-- The second dense layer's body at `(p, q)` of its block. -/
theorem pay1_apply (v0 : FVec Ideal S2000x1 .f32) (v2 v9 : FVec Ideal S2000x128 .f32) (v12 v14 : FVec Ideal S128x128 .f32)
    (v19 : FVec Ideal S1x128 .f32) (p : Fin 2000) (q : Fin 128) :
    k1_pay1 (F := Ideal) v0 v2 v9 v12 v14 v19 (ix2 p q)
      = Ideal.tanh (sageAt (n := 2000) (k := 128) (c := 128) v2 v9 (fun r => v0 (ix2 r (0 : Fin 1))) v12 v14
          (fun s => v19 (ix2 (0 : Fin 1) s)) oneW p q) := by
  unfold k1_pay1
  simp only [shapeCast_self]
  exact congrArg Ideal.tanh (body_apply dot_S2000x128_S128x128_S2000x128_1_0_0_1_n_n rfl v2 v9 v0 v12 v14 v19 0x3F800000#32
    bitsLt_bf16_f32 broadcasts_S2000x1_S2000x128 broadcasts_S1x128_S2000x128 p q)

/-- The projection's body at `(p, q)` of its block. -/
theorem pay2_apply (v0 : FVec Ideal S2000x128 .f32) (v3 : FVec Ideal S128x64 .f32) (p : Fin 2000) (q : Fin 64) :
    k2_pay1 (F := Ideal) v0 v3 (ix2 p q) = ∑ j : Fin 128, v0 (ix2 p j) * v3 (ix2 j q) := by
  unfold k2_pay1
  simp only [shapeCast_self]
  exact TwoBlocks.plain_matmul_zero_apply dot_S2000x128_S128x64_S2000x64_1_0_0_1_n_n rfl none
    (truncf .bf16 v0 bitsLt_bf16_f32) (truncf .bf16 v3 bitsLt_bf16_f32) p q

/-- The combining body at `(p, q)` of its block. -/
theorem pay3_apply (v0 : FVec Ideal S2000x1 .f32) (v2 : FVec Ideal S2000x64 .f32) (v8 : FVec Ideal S2000x128 .f32)
    (v11 : FVec Ideal S128x64 .f32) (v15 : FVec Ideal S1x64 .f32) (p : Fin 2000) (q : Fin 64) :
    k3_pay1 (F := Ideal) v0 v2 v8 v11 v15 (ix2 p q)
      = (∑ j : Fin 128, v8 (ix2 p j) * v11 (ix2 j q) + Ideal.div (v2 (ix2 p q)) (max (v0 (ix2 p (0 : Fin 1))) oneW))
          + v15 (ix2 (0 : Fin 1) q) := by
  unfold k3_pay1
  simp only [shapeCast_self]
  show (matmul dot_S2000x128_S128x64_S2000x64_1_0_0_1_n_n none (truncf .bf16 v8 bitsLt_bf16_f32) (truncf .bf16 v11 bitsLt_bf16_f32)
        (constant S2000x64 .f32 0x00000000#32) (ix2 p q)
      + Ideal.div (v2 (ix2 p q)) (broadcastTo S2000x64 (maximumf v0 (broadcast S2000x1 (Scalar.ofBits (F := Ideal) .f32 0x3F800000#32)))
          broadcasts_S2000x1_S2000x64 (ix2 p q)))
      + broadcastTo S2000x64 v15 broadcasts_S1x64_S2000x64 (ix2 p q) = _
  rw [TwoBlocks.plain_matmul_zero_apply dot_S2000x128_S128x64_S2000x64_1_0_0_1_n_n rfl none _ _ p q,
    RowOps.broadcastTo_a1_ab_apply _ broadcasts_S2000x1_S2000x64 p q, broadcastTo_1b_ab_apply v15 broadcasts_S1x64_S2000x64 p q]
  rfl

end Cert.Sage.Body

end
-- ==== Proof.Region0.lean ====
/-
  The first dense layer's launch: the table it leaves is the layer of the tables it finds.

  The launch runs the layer's body once per block of 2000 rows, 50 blocks in all.  Block `t` of the neighbour sums, of the
  degrees and of the nodes' own rows is rows `2000 t … 2000 t + 1999` of those tables; the weights and the bias row are
  staged whole.  An entry of the layer depends on its own row of the three tables only, so what point `t` writes back is
  block `t` of the whole layer, and the 50 blocks tile the result.
-/
import proofs.«131360_j60610578481667_2_alg».proof.Proof.Gen.KernelIdeal.Frame
import proofs.«131360_j60610578481667_2_alg».proof.Proof.Bodies
import proofs.«131360_j60610578481667_2_alg».proof.Proof.Spec
import Idealize.ShloMosaic.Lib.Pipeline.Value

noncomputable section

open scoped BigOperators

namespace Cert.Sage.Region0

open Idealize.ShloMosaic Idealize.ShloMosaic.TcCoe Idealize.SL.Sem Idealize.ShloMosaic.ValueIdx
open Idealize.ShloMosaic.Pipeline (Dat)
open Cert.KernelIdeal Cert.KernelIdeal.Gen Cert.Lib.SageLayer Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 50 points: the three row-blocked inputs and the output move down one block
    per point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 50 := lt_of_lt_of_eq t.isLt N_0

/-- Row `p` of block `t` is row `2000 t + p` of the table. -/
def row (t : Fin cfg0.N) (p : Fin 2000) : Fin 100000 :=
  ⟨t.val * 2000 + p.val, by have := t_lt t; have := p.isLt; omega⟩

/-- The neighbour sums' block at point `t`. -/
theorem read_S (c : Dev nD) (t : Fin cfg0.N) (p : Fin 2000) (j : Fin 128) :
    iblk0 V c 0 t (ix2 p j) = V c main_v17 (ix2 (row t p) j) := by
  obtain ⟨e0, e1, -⟩ := idx_facts t
  show V c main_v17 (((cfg0.win 0).blk t).view.emb (ix2 p j)) = _
  refine congrArg (V c main_v17) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * j.val = j.val; rw [e1]; omega

/-- The degrees' block at point `t`. -/
theorem read_deg (c : Dev nD) (t : Fin cfg0.N) (p : Fin 2000) :
    iblk0 V c 1 t (ix2 p (0 : Fin 1)) = V c main_v7 (ix2 (row t p) (0 : Fin 1)) := by
  obtain ⟨-, -, e0, e1, -⟩ := idx_facts t
  show V c main_v7 (((cfg0.win 1).blk t).view.emb (ix2 p (0 : Fin 1))) = _
  refine congrArg (V c main_v7) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 1 + 1 * 0 = 0; rw [e1]

/-- The nodes' own rows' block at point `t`. -/
theorem read_X (c : Dev nD) (t : Fin cfg0.N) (p : Fin 2000) (j : Fin 128) :
    iblk0 V c 2 t (ix2 p j) = V c main_arg0 (ix2 (row t p) j) := by
  obtain ⟨-, -, -, -, e0, e1, -⟩ := idx_facts t
  show V c main_arg0 (((cfg0.win 2).blk t).view.emb (ix2 p j)) = _
  refine congrArg (V c main_arg0) (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 128 + 1 * j.val = j.val; rw [e1]; omega

/-- The neighbours' weights are staged whole. -/
theorem read_Wl (c : Dev nD) (t : Fin cfg0.N) (j q : Fin 128) :
    iblk0 V c 3 t (ix2 j q) = V c main_arg2 (ix2 j q) := by
  obtain ⟨-, -, -, -, -, -, e0, e1, -⟩ := idx_facts t
  show V c main_arg2 (((cfg0.win 3).blk t).view.emb (ix2 j q)) = _
  refine congrArg (V c main_arg2) (funext fun a => Fin.ext ?_)
  match a with
  | ⟨0, _⟩ => show win0_3.index t (0 : Fin 2) * 128 + 1 * j.val = j.val; rw [e0]; omega
  | ⟨1, _⟩ => show win0_3.index t (1 : Fin 2) * 128 + 1 * q.val = q.val; rw [e1]; omega

/-- The nodes' own weights are staged whole. -/
theorem read_Wr (c : Dev nD) (t : Fin cfg0.N) (j q : Fin 128) :
    iblk0 V c 4 t (ix2 j q) = V c main_arg3 (ix2 j q) := by
  obtain ⟨-, -, -, -, -, -, -, -, e0, e1, -⟩ := idx_facts t
  show V c main_arg3 (((cfg0.win 4).blk t).view.emb (ix2 j q)) = _
  refine congrArg (V c main_arg3) (funext fun a => Fin.ext ?_)
  match a with
  | ⟨0, _⟩ => show win0_4.index t (0 : Fin 2) * 128 + 1 * j.val = j.val; rw [e0]; omega
  | ⟨1, _⟩ => show win0_4.index t (1 : Fin 2) * 128 + 1 * q.val = q.val; rw [e1]; omega

/-- The bias row is staged whole. -/
theorem read_b (c : Dev nD) (t : Fin cfg0.N) (q : Fin 128) :
    iblk0 V c 5 t (ix2 (0 : Fin 1) q) = V c main_v18 (ix2 (0 : Fin 1) q) := by
  obtain ⟨-, -, -, -, -, -, -, -, -, -, e0, e1, -⟩ := idx_facts t
  show V c main_v18 (((cfg0.win 5).blk t).view.emb (ix2 (0 : Fin 1) q)) = _
  refine congrArg (V c main_v18) (funext fun a => Fin.ext ?_)
  match a with
  | ⟨0, _⟩ => show win0_5.index t (0 : Fin 2) * 1 + 1 * 0 = 0; rw [e0]
  | ⟨1, _⟩ => show win0_5.index t (1 : Fin 2) * 128 + 1 * q.val = q.val; rw [e1]; omega

/-- The layer of the tables the launch finds. -/
abbrev result (c : Dev nD) : FVec Ideal S100000x128 .f32 :=
  dense (V c main_v17) (V c main_v7) (V c main_arg0) (V c main_arg2) (V c main_arg3) (V c main_v18)

/-- What point `t` writes back is block `t` of the layer. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S128x128) hz,
    View.ld_unit_zero (S := S1x128) hz]
  funext j
  obtain ⟨p, q, rfl⟩ : ∃ (p : Fin 2000) (q : Fin 128), j = ix2 p q := ⟨j 0, j 1, eq_ix2 j⟩
  obtain ⟨-, -, -, -, -, -, -, -, -, -, -, -, e0, e1⟩ := idx_facts t
  have hemb : ((cfg0.win 6).blk t).view.emb (ix2 p q) = ix2 (row t p) q := funext fun a => Fin.ext (by
    match a with
    | ⟨0, _⟩ => show win0_6.index t (0 : Fin 2) * 2000 + 1 * p.val = t.val * 2000 + p.val; rw [e0]; omega
    | ⟨1, _⟩ => show win0_6.index t (1 : Fin 2) * 128 + 1 * q.val = q.val; rw [e1]; omega)
  show k0_pay1 (iblk0 V c 1 t) (iblk0 V c 0 t) (iblk0 V c 2 t) (iblk0 V c 3 t) (iblk0 V c 4 t) (iblk0 V c 5 t) (ix2 p q)
    = result V c (((cfg0.win 6).blk t).view.emb (ix2 p q))
  rw [hemb]
  refine (Body.pay0_apply (iblk0 V c 1 t) (iblk0 V c 0 t) (iblk0 V c 2 t) (iblk0 V c 3 t) (iblk0 V c 4 t) (iblk0 V c 5 t) p q).trans ?_
  exact congrArg Ideal.tanh (sageAt_congr oneW q (fun j => read_S V c t p j) (fun j => read_X V c t p j) (read_deg V c t p)
    (fun j => read_Wl V c t j q) (fun j => read_Wr V c t j q) (read_b V c t q))

/-- Every entry of the result lies in the block of the point its row falls in. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, -, -, -, -, -, -, e0, e1⟩ := idx_facts ⟨(i 0).val / 2000, ht⟩
  refine ⟨⟨(i 0).val / 2000, ht⟩, flush0_6 _, ?_⟩
  show i ∈ ((View.whole main_v19).slice (win0_6.rect ⟨(i 0).val / 2000, ht⟩)).set
  rw [View.set_slice_whole, Rect.mem_set_unit]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ (1 : Fin 2) * 128 ≤ (i 1).val
      ∧ (i 1).val < win0_6.index ⟨(i 0).val / 2000, ht⟩ (1 : Fin 2) * 128 + 128
    rw [e1]; omega

/-- THE LAUNCH'S RESULT: the output table after the launch is the layer of the tables found at its entry. -/
theorem value (c : Dev nD) : (dat0 V c).arrAt 6 cfg0.N = result V c :=
  (dat0 V c).arrAt_eq_of_cover 6 (result V c) (fun t _ => flushed_eq V c t) cover

end Cert.Sage.Region0

end
-- ==== Proof.Region1.lean ====
/-
  The second dense layer's launch: the table it leaves is the layer of the tables it finds.

  The launch runs the layer's body once per block of 2000 rows, 50 blocks in all.  Block `t` of the neighbour sums, of the
  degrees and of the nodes' own rows is rows `2000 t … 2000 t + 1999` of those tables; the weights and the bias row are
  staged whole.  An entry of the layer depends on its own row of the three tables only, so what point `t` writes back is
  block `t` of the whole layer, and the 50 blocks tile the result.
-/
import proofs.«131360_j60610578481667_2_alg».proof.Proof.Gen.KernelIdeal.Frame
import proofs.«131360_j60610578481667_2_alg».proof.Proof.Bodies
import proofs.«131360_j60610578481667_2_alg».proof.Proof.Spec
import Idealize.ShloMosaic.Lib.Pipeline.Value

noncomputable section

open scoped BigOperators

namespace Cert.Sage.Region1

open Idealize.ShloMosaic Idealize.ShloMosaic.TcCoe Idealize.SL.Sem Idealize.ShloMosaic.ValueIdx
open Idealize.ShloMosaic.Pipeline (Dat)
open Cert.KernelIdeal Cert.KernelIdeal.Gen Cert.Lib.SageLayer Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 50 points: the three row-blocked inputs and the output move down one block
    per point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 50 := lt_of_lt_of_eq t.isLt N_1

/-- Row `p` of block `t` is row `2000 t + p` of the table. -/
def row (t : Fin cfg1.N) (p : Fin 2000) : Fin 100000 :=
  ⟨t.val * 2000 + p.val, by have := t_lt t; have := p.isLt; omega⟩

/-- The neighbour sums' block at point `t`. -/
theorem read_S (c : Dev nD) (t : Fin cfg1.N) (p : Fin 2000) (j : Fin 128) :
    iblk1 V c 0 t (ix2 p j) = V c main_v29 (ix2 (row t p) j) := by
  obtain ⟨e0, e1, -⟩ := idx_facts t
  show V c main_v29 (((cfg1.win 0).blk t).view.emb (ix2 p j)) = _
  refine congrArg (V c main_v29) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * j.val = j.val; rw [e1]; omega

/-- The degrees' block at point `t`. -/
theorem read_deg (c : Dev nD) (t : Fin cfg1.N) (p : Fin 2000) :
    iblk1 V c 1 t (ix2 p (0 : Fin 1)) = V c main_v7 (ix2 (row t p) (0 : Fin 1)) := by
  obtain ⟨-, -, e0, e1, -⟩ := idx_facts t
  show V c main_v7 (((cfg1.win 1).blk t).view.emb (ix2 p (0 : Fin 1))) = _
  refine congrArg (V c main_v7) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 1 + 1 * 0 = 0; rw [e1]

/-- The nodes' own rows' block at point `t`. -/
theorem read_X (c : Dev nD) (t : Fin cfg1.N) (p : Fin 2000) (j : Fin 128) :
    iblk1 V c 2 t (ix2 p j) = V c main_v19 (ix2 (row t p) j) := by
  obtain ⟨-, -, -, -, e0, e1, -⟩ := idx_facts t
  show V c main_v19 (((cfg1.win 2).blk t).view.emb (ix2 p j)) = _
  refine congrArg (V c main_v19) (funext fun a => Fin.ext ?_)
  match a with
  | ⟨0, _⟩ => show win1_2.index t (0 : Fin 2) * 2000 + 1 * p.val = t.val * 2000 + p.val; rw [e0]; omega
  | ⟨1, _⟩ => show win1_2.index t (1 : Fin 2) * 128 + 1 * j.val = j.val; rw [e1]; omega

/-- The neighbours' weights are staged whole. -/
theorem read_Wl (c : Dev nD) (t : Fin cfg1.N) (j q : Fin 128) :
    iblk1 V c 3 t (ix2 j q) = V c main_arg5 (ix2 j q) := by
  obtain ⟨-, -, -, -, -, -, e0, e1, -⟩ := idx_facts t
  show V c main_arg5 (((cfg1.win 3).blk t).view.emb (ix2 j q)) = _
  refine congrArg (V c main_arg5) (funext fun a => Fin.ext ?_)
  match a with
  | ⟨0, _⟩ => show win1_3.index t (0 : Fin 2) * 128 + 1 * j.val = j.val; rw [e0]; omega
  | ⟨1, _⟩ => show win1_3.index t (1 : Fin 2) * 128 + 1 * q.val = q.val; rw [e1]; omega

/-- The nodes' own weights are staged whole. -/
theorem read_Wr (c : Dev nD) (t : Fin cfg1.N) (j q : Fin 128) :
    iblk1 V c 4 t (ix2 j q) = V c main_arg6 (ix2 j q) := by
  obtain ⟨-, -, -, -, -, -, -, -, e0, e1, -⟩ := idx_facts t
  show V c main_arg6 (((cfg1.win 4).blk t).view.emb (ix2 j q)) = _
  refine congrArg (V c main_arg6) (funext fun a => Fin.ext ?_)
  match a with
  | ⟨0, _⟩ => show win1_4.index t (0 : Fin 2) * 128 + 1 * j.val = j.val; rw [e0]; omega
  | ⟨1, _⟩ => show win1_4.index t (1 : Fin 2) * 128 + 1 * q.val = q.val; rw [e1]; omega

/-- The bias row is staged whole. -/
theorem read_b (c : Dev nD) (t : Fin cfg1.N) (q : Fin 128) :
    iblk1 V c 5 t (ix2 (0 : Fin 1) q) = V c main_v30 (ix2 (0 : Fin 1) q) := by
  obtain ⟨-, -, -, -, -, -, -, -, -, -, e0, e1, -⟩ := idx_facts t
  show V c main_v30 (((cfg1.win 5).blk t).view.emb (ix2 (0 : Fin 1) q)) = _
  refine congrArg (V c main_v30) (funext fun a => Fin.ext ?_)
  match a with
  | ⟨0, _⟩ => show win1_5.index t (0 : Fin 2) * 1 + 1 * 0 = 0; rw [e0]
  | ⟨1, _⟩ => show win1_5.index t (1 : Fin 2) * 128 + 1 * q.val = q.val; rw [e1]; omega

/-- The layer of the tables the launch finds. -/
abbrev result (c : Dev nD) : FVec Ideal S100000x128 .f32 :=
  dense (V c main_v29) (V c main_v7) (V c main_v19) (V c main_arg5) (V c main_arg6) (V c main_v30)

/-- What point `t` writes back is block `t` of the layer. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz, View.ld_unit_zero (S := S128x128) hz,
    View.ld_unit_zero (S := S1x128) hz]
  funext j
  obtain ⟨p, q, rfl⟩ : ∃ (p : Fin 2000) (q : Fin 128), j = ix2 p q := ⟨j 0, j 1, eq_ix2 j⟩
  obtain ⟨-, -, -, -, -, -, -, -, -, -, -, -, e0, e1⟩ := idx_facts t
  have hemb : ((cfg1.win 6).blk t).view.emb (ix2 p q) = ix2 (row t p) q := funext fun a => Fin.ext (by
    match a with
    | ⟨0, _⟩ => show win1_6.index t (0 : Fin 2) * 2000 + 1 * p.val = t.val * 2000 + p.val; rw [e0]; omega
    | ⟨1, _⟩ => show win1_6.index t (1 : Fin 2) * 128 + 1 * q.val = q.val; rw [e1]; omega)
  show k1_pay1 (iblk1 V c 1 t) (iblk1 V c 0 t) (iblk1 V c 2 t) (iblk1 V c 3 t) (iblk1 V c 4 t) (iblk1 V c 5 t) (ix2 p q)
    = result V c (((cfg1.win 6).blk t).view.emb (ix2 p q))
  rw [hemb]
  refine (Body.pay1_apply (iblk1 V c 1 t) (iblk1 V c 0 t) (iblk1 V c 2 t) (iblk1 V c 3 t) (iblk1 V c 4 t) (iblk1 V c 5 t) p q).trans ?_
  exact congrArg Ideal.tanh (sageAt_congr oneW q (fun j => read_S V c t p j) (fun j => read_X V c t p j) (read_deg V c t p)
    (fun j => read_Wl V c t j q) (fun j => read_Wr V c t j q) (read_b V c t q))

/-- Every entry of the result lies in the block of the point its row falls in. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, -, -, -, -, -, -, e0, e1⟩ := idx_facts ⟨(i 0).val / 2000, ht⟩
  refine ⟨⟨(i 0).val / 2000, ht⟩, flush1_6 _, ?_⟩
  show i ∈ ((View.whole main_v31).slice (win1_6.rect ⟨(i 0).val / 2000, ht⟩)).set
  rw [View.set_slice_whole, Rect.mem_set_unit]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val
      ∧ (i 1).val < win1_6.index ⟨(i 0).val / 2000, ht⟩ (1 : Fin 2) * 128 + 128
    rw [e1]; omega

/-- THE LAUNCH'S RESULT: the output table after the launch is the layer of the tables found at its entry. -/
theorem value (c : Dev nD) : (dat1 V c).arrAt 6 cfg1.N = result V c :=
  (dat1 V c).arrAt_eq_of_cover 6 (result V c) (fun t _ => flushed_eq V c t) cover

end Cert.Sage.Region1

end
-- ==== Proof.Region2.lean ====
/-
  The projection's launch: the table it leaves is the product of the table it finds with the weights.

  The launch multiplies one block of 2000 rows by the whole 128 × 64 weight matrix per point, 50 points in all.  An entry of
  a product depends on its own row of the left table only, so what point `t` writes back is block `t` of the whole
  product, and the 50 blocks tile the result.
-/
import proofs.«131360_j60610578481667_2_alg».proof.Proof.Gen.KernelIdeal.Frame
import proofs.«131360_j60610578481667_2_alg».proof.Proof.Bodies
import proofs.«131360_j60610578481667_2_alg».proof.Proof.Spec
import Idealize.ShloMosaic.Lib.Pipeline.Value

noncomputable section

open scoped BigOperators

namespace Cert.Sage.Region2

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 50 points: the left table's block and the output's move down one block per
    point, the weights stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem t_lt (t : Fin cfg2.N) : t.val < 50 := lt_of_lt_of_eq t.isLt N_2

/-- Row `p` of block `t` is row `2000 t + p` of the table. -/
def row (t : Fin cfg2.N) (p : Fin 2000) : Fin 100000 :=
  ⟨t.val * 2000 + p.val, by have := t_lt t; have := p.isLt; omega⟩

/-- The left table's block at point `t`. -/
theorem read_H (c : Dev nD) (t : Fin cfg2.N) (p : Fin 2000) (j : Fin 128) :
    iblk2 V c 0 t (ix2 p j) = V c main_v31 (ix2 (row t p) j) := by
  obtain ⟨e0, e1, -⟩ := idx_facts t
  show V c main_v31 (((cfg2.win 0).blk t).view.emb (ix2 p j)) = _
  refine congrArg (V c main_v31) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * j.val = j.val; rw [e1]; omega

/-- The weights are staged whole. -/
theorem read_W (c : Dev nD) (t : Fin cfg2.N) (j : Fin 128) (q : Fin 64) :
    iblk2 V c 1 t (ix2 j q) = V c main_arg8 (ix2 j q) := by
  obtain ⟨-, -, e0, e1, -⟩ := idx_facts t
  show V c main_arg8 (((cfg2.win 1).blk t).view.emb (ix2 j q)) = _
  refine congrArg (V c main_arg8) (funext fun a => Fin.ext ?_)
  match a with
  | ⟨0, _⟩ => show win2_1.index t (0 : Fin 2) * 128 + 1 * j.val = j.val; rw [e0]; omega
  | ⟨1, _⟩ => show win2_1.index t (1 : Fin 2) * 64 + 1 * q.val = q.val; rw [e1]; omega

/-- The product of the table the launch finds with the weights. -/
abbrev result (c : Dev nD) : FVec Ideal S100000x64 .f32 := project (V c main_v31) (V c main_arg8)

/-- What point `t` writes back is block `t` of the product. -/
theorem flushed_eq (c : Dev nD) (t : Fin cfg2.N) :
    (dat2 V c).flushed 2 t = ((cfg2.win 2).blk t).view.read (Elt Ideal) (result V c) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  funext j
  obtain ⟨p, q, rfl⟩ : ∃ (p : Fin 2000) (q : Fin 64), j = ix2 p q := ⟨j 0, j 1, eq_ix2 j⟩
  obtain ⟨-, -, -, -, e0, e1⟩ := idx_facts t
  have hemb : ((cfg2.win 2).blk t).view.emb (ix2 p q) = ix2 (row t p) q := funext fun a => Fin.ext (by
    match a with
    | ⟨0, _⟩ => show win2_2.index t (0 : Fin 2) * 2000 + 1 * p.val = t.val * 2000 + p.val; rw [e0]; omega
    | ⟨1, _⟩ => show win2_2.index t (1 : Fin 2) * 64 + 1 * q.val = q.val; rw [e1]; omega)
  show k2_pay1 (iblk2 V c 0 t) (iblk2 V c 1 t) (ix2 p q) = result V c (((cfg2.win 2).blk t).view.emb (ix2 p q))
  rw [hemb]
  refine (Body.pay2_apply (iblk2 V c 0 t) (iblk2 V c 1 t) p q).trans ?_
  show _ = projectAt (V c main_v31) (V c main_arg8) (row t p) q
  unfold projectAt
  exact Finset.sum_congr rfl fun j _ => by rw [read_H V c t p j, read_W V c t j q]

/-- Every entry of the result lies in the block of the point its row falls in. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  have ht : (i 0).val / 2000 < cfg2.N := by rw [hN]; omega
  obtain ⟨-, -, -, -, e0, e1⟩ := idx_facts ⟨(i 0).val / 2000, ht⟩
  refine ⟨⟨(i 0).val / 2000, ht⟩, flush2_2 _, ?_⟩
  show i ∈ ((View.whole main_v32).slice (win2_2.rect ⟨(i 0).val / 2000, ht⟩)).set
  rw [View.set_slice_whole, Rect.mem_set_unit]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_2.index ⟨(i 0).val / 2000, ht⟩ (1 : Fin 2) * 64 ≤ (i 1).val
      ∧ (i 1).val < win2_2.index ⟨(i 0).val / 2000, ht⟩ (1 : Fin 2) * 64 + 64
    rw [e1]; omega

/-- THE LAUNCH'S RESULT: the output table after the launch is the product of the table found at its entry with the weights. -/
theorem value (c : Dev nD) : (dat2 V c).arrAt 2 cfg2.N = result V c :=
  (dat2 V c).arrAt_eq_of_cover 2 (result V c) (fun t _ => flushed_eq V c t) cover

end Cert.Sage.Region2

end
-- ==== Proof.Region3.lean ====
/-
  The last layer's launch: the table it leaves is the combination of the tables it finds.

  Per block of 2000 rows the launch divides the already projected neighbour sums by the degree floored at one, adds the
  nodes' own rows times their weights and the bias row.  Block `t` of the 64-wide sums, of the degrees and of the own rows is
  rows `2000 t … 2000 t + 1999` of those tables; the weights and the bias row are staged whole.  An entry depends on its own
  row of the three tables only, so what point `t` writes back is block `t` of the whole combination, and the 50 blocks
  tile the result.
-/
import proofs.«131360_j60610578481667_2_alg».proof.Proof.Gen.KernelIdeal.Frame
import proofs.«131360_j60610578481667_2_alg».proof.Proof.Bodies
import proofs.«131360_j60610578481667_2_alg».proof.Proof.Spec
import Idealize.ShloMosaic.Lib.Pipeline.Value

noncomputable section

open scoped BigOperators

namespace Cert.Sage.Region3

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 50 points: the three row-blocked inputs and the output move down one block
    per point, the weights and the bias stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem t_lt (t : Fin cfg3.N) : t.val < 50 := lt_of_lt_of_eq t.isLt N_3

/-- Row `p` of block `t` is row `2000 t + p` of the table. -/
def row (t : Fin cfg3.N) (p : Fin 2000) : Fin 100000 :=
  ⟨t.val * 2000 + p.val, by have := t_lt t; have := p.isLt; omega⟩

/-- The projected neighbour sums' block at point `t`. -/
theorem read_S (c : Dev nD) (t : Fin cfg3.N) (p : Fin 2000) (q : Fin 64) :
    iblk3 V c 0 t (ix2 p q) = V c main_v42 (ix2 (row t p) q) := by
  obtain ⟨e0, e1, -⟩ := idx_facts t
  show V c main_v42 (((cfg3.win 0).blk t).view.emb (ix2 p q)) = _
  refine congrArg (V c main_v42) (funext fun a => Fin.ext ?_)
  match a with
  | ⟨0, _⟩ => show win3_0.index t (0 : Fin 2) * 2000 + 1 * p.val = t.val * 2000 + p.val; rw [e0]; omega
  | ⟨1, _⟩ => show win3_0.index t (1 : Fin 2) * 64 + 1 * q.val = q.val; rw [e1]; omega

/-- The degrees' block at point `t`. -/
theorem read_deg (c : Dev nD) (t : Fin cfg3.N) (p : Fin 2000) :
    iblk3 V c 1 t (ix2 p (0 : Fin 1)) = V c main_v7 (ix2 (row t p) (0 : Fin 1)) := by
  obtain ⟨-, -, e0, e1, -⟩ := idx_facts t
  show V c main_v7 (((cfg3.win 1).blk t).view.emb (ix2 p (0 : Fin 1))) = _
  refine congrArg (V c main_v7) (funext fun a => Fin.ext ?_)
  match a with
  | ⟨0, _⟩ => show win3_1.index t (0 : Fin 2) * 2000 + 1 * p.val = t.val * 2000 + p.val; rw [e0]; omega
  | ⟨1, _⟩ => show win3_1.index t (1 : Fin 2) * 1 + 1 * 0 = 0; rw [e1]

/-- The nodes' own rows' block at point `t`. -/
theorem read_H (c : Dev nD) (t : Fin cfg3.N) (p : Fin 2000) (j : Fin 128) :
    iblk3 V c 2 t (ix2 p j) = V c main_v31 (ix2 (row t p) j) := by
  obtain ⟨-, -, -, -, e0, e1, -⟩ := idx_facts t
  show V c main_v31 (((cfg3.win 2).blk t).view.emb (ix2 p j)) = _
  refine congrArg (V c main_v31) (funext fun a => Fin.ext ?_)
  match a with
  | ⟨0, _⟩ => show win3_2.index t (0 : Fin 2) * 2000 + 1 * p.val = t.val * 2000 + p.val; rw [e0]; omega
  | ⟨1, _⟩ => show win3_2.index t (1 : Fin 2) * 128 + 1 * j.val = j.val; rw [e1]; omega

/-- The weights are staged whole. -/
theorem read_W (c : Dev nD) (t : Fin cfg3.N) (j : Fin 128) (q : Fin 64) :
    iblk3 V c 3 t (ix2 j q) = V c main_arg9 (ix2 j q) := by
  obtain ⟨-, -, -, -, -, -, e0, e1, -⟩ := idx_facts t
  show V c main_arg9 (((cfg3.win 3).blk t).view.emb (ix2 j q)) = _
  refine congrArg (V c main_arg9) (funext fun a => Fin.ext ?_)
  match a with
  | ⟨0, _⟩ => show win3_3.index t (0 : Fin 2) * 128 + 1 * j.val = j.val; rw [e0]; omega
  | ⟨1, _⟩ => show win3_3.index t (1 : Fin 2) * 64 + 1 * q.val = q.val; rw [e1]; omega

/-- The bias row is staged whole. -/
theorem read_b (c : Dev nD) (t : Fin cfg3.N) (q : Fin 64) :
    iblk3 V c 4 t (ix2 (0 : Fin 1) q) = V c main_v43 (ix2 (0 : Fin 1) q) := by
  obtain ⟨-, -, -, -, -, -, -, -, e0, e1, -⟩ := idx_facts t
  show V c main_v43 (((cfg3.win 4).blk t).view.emb (ix2 (0 : Fin 1) q)) = _
  refine congrArg (V c main_v43) (funext fun a => Fin.ext ?_)
  match a with
  | ⟨0, _⟩ => show win3_4.index t (0 : Fin 2) * 1 + 1 * 0 = 0; rw [e0]
  | ⟨1, _⟩ => show win3_4.index t (1 : Fin 2) * 64 + 1 * q.val = q.val; rw [e1]; omega

/-- The combination of the tables the launch finds. -/
abbrev result (c : Dev nD) : FVec Ideal S100000x64 .f32 :=
  combine (V c main_v42) (V c main_v7) (V c main_v31) (V c main_arg9) (V c main_v43)

/-- What point `t` writes back is block `t` of the combination. -/
theorem flushed_eq (c : Dev nD) (t : Fin cfg3.N) :
    (dat3 V c).flushed 5 t = ((cfg3.win 5).blk t).view.read (Elt Ideal) (result V c) := by
  show (cfg3.win 5).cut (grid3.coords t) ((dat3 V c).after 5 t) = _
  rw [after3_5]
  unfold out3_5
  rw [View.canon_unit_zero hz]
  simp only [View.ld_unit_zero (S := S2000x64) hz, View.ld_unit_zero (S := S2000x1) hz, View.ld_unit_zero (S := S2000x128) hz,
    View.ld_unit_zero (S := S128x64) hz, View.ld_unit_zero (S := S1x64) hz]
  funext j
  obtain ⟨p, q, rfl⟩ : ∃ (p : Fin 2000) (q : Fin 64), j = ix2 p q := ⟨j 0, j 1, eq_ix2 j⟩
  obtain ⟨-, -, -, -, -, -, -, -, -, -, e0, e1⟩ := idx_facts t
  have hemb : ((cfg3.win 5).blk t).view.emb (ix2 p q) = ix2 (row t p) q := funext fun a => Fin.ext (by
    match a with
    | ⟨0, _⟩ => show win3_5.index t (0 : Fin 2) * 2000 + 1 * p.val = t.val * 2000 + p.val; rw [e0]; omega
    | ⟨1, _⟩ => show win3_5.index t (1 : Fin 2) * 64 + 1 * q.val = q.val; rw [e1]; omega)
  show k3_pay1 (iblk3 V c 1 t) (iblk3 V c 0 t) (iblk3 V c 2 t) (iblk3 V c 3 t) (iblk3 V c 4 t) (ix2 p q)
    = result V c (((cfg3.win 5).blk t).view.emb (ix2 p q))
  rw [hemb]
  refine (Body.pay3_apply (iblk3 V c 1 t) (iblk3 V c 0 t) (iblk3 V c 2 t) (iblk3 V c 3 t) (iblk3 V c 4 t) p q).trans ?_
  show _ = combineAt (V c main_v42) (V c main_v7) (V c main_v31) (V c main_arg9) (V c main_v43) (row t p) q
  unfold combineAt
  rw [read_S V c t p q, read_deg V c t p, read_b V c t q]
  exact congrArg₂ (· + ·) (congrArg₂ (· + ·)
    (Finset.sum_congr rfl fun j _ => by rw [read_H V c t p j, read_W V c t j q]) rfl) rfl

/-- Every entry of the result lies in the block of the point its row falls in. -/
theorem cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 50 := N_3
  have ht : (i 0).val / 2000 < cfg3.N := by rw [hN]; omega
  obtain ⟨-, -, -, -, -, -, -, -, -, -, e0, e1⟩ := idx_facts ⟨(i 0).val / 2000, ht⟩
  refine ⟨⟨(i 0).val / 2000, ht⟩, flush3_5 _, ?_⟩
  show i ∈ ((View.whole main_v44).slice (win3_5.rect ⟨(i 0).val / 2000, ht⟩)).set
  rw [View.set_slice_whole, Rect.mem_set_unit]
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_5.index ⟨(i 0).val / 2000, ht⟩ (1 : Fin 2) * 64 ≤ (i 1).val
      ∧ (i 1).val < win3_5.index ⟨(i 0).val / 2000, ht⟩ (1 : Fin 2) * 64 + 64
    rw [e1]; omega

/-- THE LAUNCH'S RESULT: the output table after the launch is the combination of the tables found at its entry. -/
theorem value (c : Dev nD) : (dat3 V c).arrAt 5 cfg3.N = result V c :=
  (dat3 V c).arrAt_eq_of_cover 5 (result V c) (fun t _ => flushed_eq V c t) cover

end Cert.Sage.Region3

end
-- ==== Proof.KernelRun.lean ====
/-
  The kernel's run with its result named.

  The program is seven segments: a stretch of host operations, the first dense layer's launch, a second stretch, the second
  layer's launch, the projection's launch, a third stretch, the last layer's launch.  Every weakly fair execution ends,
  without a fault, in a state whose unscoped buffers hold the contents at the last segment boundary; read at the result
  buffer that is the last launch's output table, and at each argument it is the argument as launched.  The launch term is
  the frame's own, over the same segments, with the result buffer read as well.
-/
import proofs.«131360_j60610578481667_2_alg».proof.Proof.Gen.KernelIdeal.Frame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program ends, nothing faulting, with the result buffer at the last segment
    boundary's contents and every argument as launched. -/
theorem run_named : θ_run defs (onTc (τ := τ) (main (F := F))) ⟨m, fun _ => 0, ρ⟩ (fun r => ∀ c : Dev nD,
      r.2.mem ((c.tc : Thread nD τ).loc main_v44) = W7 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v44 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.Sage.KernelRun

end
-- ==== Proof.KernelValue.lean ====
/-
  What the kernel's program leaves in its result buffer: the network of the argument arrays.

  The contents of the buffers are followed from the launch to the return through the seven segments.  A stretch of host
  operations leaves every buffer it does not write as it found it and writes the others as pure functions of what it found:
  the sources and targets cut out of the edge list, the degrees, the neighbour sums of a table, a bias re-laid as a row.  A
  launch leaves every buffer that is not its output as it found it and its output at the layer (the product, the
  combination) of the tables it found.  Composing the seven steps, the result buffer holds `network` of the arguments.
-/
import proofs.«131360_j60610578481667_2_alg».proof.Proof.Gen.KernelIdeal.Frame
import proofs.«131360_j60610578481667_2_alg».proof.Proof.Spec
import proofs.«131360_j60610578481667_2_alg».proof.Proof.Region0
import proofs.«131360_j60610578481667_2_alg».proof.Proof.Region1
import proofs.«131360_j60610578481667_2_alg».proof.Proof.Region2
import proofs.«131360_j60610578481667_2_alg».proof.Proof.Region3
import proofs.«131360_j60610578481667_2_alg».proof.Proof.KernelRun
import Idealize.ShloMosaic.Lib.StableHlo.Run

noncomputable section

namespace Cert.Sage.KernelValue

open Idealize.ShloMosaic Idealize.ShloMosaic.TcCoe Idealize.SL.Sem Idealize.ShloMosaic.StableHlo
open Idealize.ShloMosaic.Pipeline (Dat)
open Cert.KernelIdeal Cert.KernelIdeal.Gen Cert.Sage

variable (m : (ℓ : Loc nD τ sig) → Buf (Elt Ideal) ℓ) (ρ : Dev nD → PrngReg) (c : Dev nD)

/-- A stretch of host operations leaves a buffer none of them writes as it found it. -/
local macro "host_keeps" : tactic => `(tactic| (
  refine StableHlo.after_of_forall_not_mem _ _ (List.forall_iff_forall_mem.mp ?_)
  simp only [hostOps0, hostOps1, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

set_option quotPrecheck false

local notation:max "𝔹0 " b:max => W0 m ρ c (Proc.devRef .tc b)
local notation:max "𝔹1 " b:max => W1 m ρ c (Proc.devRef .tc b)
local notation:max "𝔹2 " b:max => W2 m ρ c (Proc.devRef .tc b)
local notation:max "𝔹3 " b:max => W3 m ρ c (Proc.devRef .tc b)
local notation:max "𝔹4 " b:max => W4 m ρ c (Proc.devRef .tc b)
local notation:max "𝔹5 " b:max => W5 m ρ c (Proc.devRef .tc b)
local notation:max "𝔹6 " b:max => W6 m ρ c (Proc.devRef .tc b)
local notation:max "𝔹7 " b:max => W7 m ρ c (Proc.devRef .tc b)

/-! ## The first stretch: the edge list cut in two, the degrees, the first neighbour sums, the first bias row -/

theorem s0_v1 : 𝔹1 main_v1 = srcVec (𝔹0 main_arg1) := by
  show StableHlo.after hostOps0 (W0 m ρ c) (Proc.devRef .tc main_v1) = _
  generalize W0 m ρ c = Wp
  dsimp only [hostOps0]; after_results_simp <;> rfl

theorem s0_v3 : 𝔹1 main_v3 = dstVec (𝔹0 main_arg1) := by
  show StableHlo.after hostOps0 (W0 m ρ c) (Proc.devRef .tc main_v3) = _
  generalize W0 m ρ c = Wp
  dsimp only [hostOps0]; after_results_simp <;> rfl

set_option maxHeartbeats 4000000 in
theorem s0_v7 : 𝔹1 main_v7 = degreeOf (dstVec (𝔹0 main_arg1)) := by
  show StableHlo.after hostOps0 (W0 m ρ c) (Proc.devRef .tc main_v7) = _
  generalize W0 m ρ c = Wp
  dsimp only [hostOps0]; after_results_simp <;> rfl

set_option maxHeartbeats 4000000 in
theorem s0_v17 : 𝔹1 main_v17 = agg128Of (srcVec (𝔹0 main_arg1)) (dstVec (𝔹0 main_arg1)) (𝔹0 main_arg0) := by
  show StableHlo.after hostOps0 (W0 m ρ c) (Proc.devRef .tc main_v17) = _
  generalize W0 m ρ c = Wp
  dsimp only [hostOps0]; after_results_simp <;> rfl

theorem s0_v18 : 𝔹1 main_v18 = shapeCast S1x128 (𝔹0 main_arg4) shapeCasts_S128_S1x128 := by
  show StableHlo.after hostOps0 (W0 m ρ c) (Proc.devRef .tc main_v18) = _
  generalize W0 m ρ c = Wp
  dsimp only [hostOps0]; after_results_simp <;> rfl

theorem s0_arg0 : 𝔹1 main_arg0 = 𝔹0 main_arg0 := by host_keeps
theorem s0_arg2 : 𝔹1 main_arg2 = 𝔹0 main_arg2 := by host_keeps
theorem s0_arg3 : 𝔹1 main_arg3 = 𝔹0 main_arg3 := by host_keeps
theorem s0_arg5 : 𝔹1 main_arg5 = 𝔹0 main_arg5 := by host_keeps
theorem s0_arg6 : 𝔹1 main_arg6 = 𝔹0 main_arg6 := by host_keeps
theorem s0_arg7 : 𝔹1 main_arg7 = 𝔹0 main_arg7 := by host_keeps
theorem s0_arg8 : 𝔹1 main_arg8 = 𝔹0 main_arg8 := by host_keeps
theorem s0_arg9 : 𝔹1 main_arg9 = 𝔹0 main_arg9 := by host_keeps
theorem s0_arg10 : 𝔹1 main_arg10 = 𝔹0 main_arg10 := by host_keeps

/-! ## The first dense layer's launch -/

theorem r0_v19 : 𝔹2 main_v19 = dense (𝔹1 main_v17) (𝔹1 main_v7) (𝔹1 main_arg0) (𝔹1 main_arg2) (𝔹1 main_arg3) (𝔹1 main_v18) :=
  (W2_arr m ρ c 6).trans (Region0.value (V1 m ρ) c)

theorem r0_v7 : 𝔹2 main_v7 = 𝔹1 main_v7 :=
  (W2_arr m ρ c 1).trans (((dat0 (V1 m ρ) c).arrAt_in 1 rfl _).trans (A_eq0 (V1 m ρ) c 1))
theorem r0_v1 : 𝔹2 main_v1 = 𝔹1 main_v1 := W2_of_ne m ρ c main_v1 (by decide)
theorem r0_v3 : 𝔹2 main_v3 = 𝔹1 main_v3 := W2_of_ne m ρ c main_v3 (by decide)
theorem r0_arg5 : 𝔹2 main_arg5 = 𝔹1 main_arg5 := W2_of_ne m ρ c main_arg5 (by decide)
theorem r0_arg6 : 𝔹2 main_arg6 = 𝔹1 main_arg6 := W2_of_ne m ρ c main_arg6 (by decide)
theorem r0_arg7 : 𝔹2 main_arg7 = 𝔹1 main_arg7 := W2_of_ne m ρ c main_arg7 (by decide)
theorem r0_arg8 : 𝔹2 main_arg8 = 𝔹1 main_arg8 := W2_of_ne m ρ c main_arg8 (by decide)
theorem r0_arg9 : 𝔹2 main_arg9 = 𝔹1 main_arg9 := W2_of_ne m ρ c main_arg9 (by decide)
theorem r0_arg10 : 𝔹2 main_arg10 = 𝔹1 main_arg10 := W2_of_ne m ρ c main_arg10 (by decide)

/-! ## The second stretch: the second neighbour sums, the second bias row -/

set_option maxHeartbeats 4000000 in
theorem s1_v29 : 𝔹3 main_v29 = agg128Of (𝔹2 main_v1) (𝔹2 main_v3) (𝔹2 main_v19) := by
  show StableHlo.after hostOps1 (W2 m ρ c) (Proc.devRef .tc main_v29) = _
  generalize W2 m ρ c = Wp
  dsimp only [hostOps1]; after_results_simp <;> rfl

theorem s1_v30 : 𝔹3 main_v30 = shapeCast S1x128 (𝔹2 main_arg7) shapeCasts_S128_S1x128 := by
  show StableHlo.after hostOps1 (W2 m ρ c) (Proc.devRef .tc main_v30) = _
  generalize W2 m ρ c = Wp
  dsimp only [hostOps1]; after_results_simp <;> rfl

theorem s1_v1 : 𝔹3 main_v1 = 𝔹2 main_v1 := by host_keeps
theorem s1_v3 : 𝔹3 main_v3 = 𝔹2 main_v3 := by host_keeps
theorem s1_v7 : 𝔹3 main_v7 = 𝔹2 main_v7 := by host_keeps
theorem s1_v19 : 𝔹3 main_v19 = 𝔹2 main_v19 := by host_keeps
theorem s1_arg5 : 𝔹3 main_arg5 = 𝔹2 main_arg5 := by host_keeps
theorem s1_arg6 : 𝔹3 main_arg6 = 𝔹2 main_arg6 := by host_keeps
theorem s1_arg8 : 𝔹3 main_arg8 = 𝔹2 main_arg8 := by host_keeps
theorem s1_arg9 : 𝔹3 main_arg9 = 𝔹2 main_arg9 := by host_keeps
theorem s1_arg10 : 𝔹3 main_arg10 = 𝔹2 main_arg10 := by host_keeps

/-! ## The second dense layer's launch -/

theorem r1_v31 : 𝔹4 main_v31 = dense (𝔹3 main_v29) (𝔹3 main_v7) (𝔹3 main_v19) (𝔹3 main_arg5) (𝔹3 main_arg6) (𝔹3 main_v30) :=
  (W4_arr m ρ c 6).trans (Region1.value (V3 m ρ) c)

theorem r1_v7 : 𝔹4 main_v7 = 𝔹3 main_v7 :=
  (W4_arr m ρ c 1).trans (((dat1 (V3 m ρ) c).arrAt_in 1 rfl _).trans (A_eq1 (V3 m ρ) c 1))
theorem r1_v1 : 𝔹4 main_v1 = 𝔹3 main_v1 := W4_of_ne m ρ c main_v1 (by decide)
theorem r1_v3 : 𝔹4 main_v3 = 𝔹3 main_v3 := W4_of_ne m ρ c main_v3 (by decide)
theorem r1_arg8 : 𝔹4 main_arg8 = 𝔹3 main_arg8 := W4_of_ne m ρ c main_arg8 (by decide)
theorem r1_arg9 : 𝔹4 main_arg9 = 𝔹3 main_arg9 := W4_of_ne m ρ c main_arg9 (by decide)
theorem r1_arg10 : 𝔹4 main_arg10 = 𝔹3 main_arg10 := W4_of_ne m ρ c main_arg10 (by decide)

/-! ## The projection's launch -/

theorem r2_v32 : 𝔹5 main_v32 = project (𝔹4 main_v31) (𝔹4 main_arg8) :=
  (W5_arr m ρ c 2).trans (Region2.value (V4 m ρ) c)

theorem r2_v31 : 𝔹5 main_v31 = 𝔹4 main_v31 :=
  (W5_arr m ρ c 0).trans (((dat2 (V4 m ρ) c).arrAt_in 0 rfl _).trans (A_eq2 (V4 m ρ) c 0))
theorem r2_v1 : 𝔹5 main_v1 = 𝔹4 main_v1 := W5_of_ne m ρ c main_v1 (by decide)
theorem r2_v3 : 𝔹5 main_v3 = 𝔹4 main_v3 := W5_of_ne m ρ c main_v3 (by decide)
theorem r2_v7 : 𝔹5 main_v7 = 𝔹4 main_v7 := W5_of_ne m ρ c main_v7 (by decide)
theorem r2_arg9 : 𝔹5 main_arg9 = 𝔹4 main_arg9 := W5_of_ne m ρ c main_arg9 (by decide)
theorem r2_arg10 : 𝔹5 main_arg10 = 𝔹4 main_arg10 := W5_of_ne m ρ c main_arg10 (by decide)

/-! ## The third stretch: the neighbour sums of the projected table, the last bias row -/

set_option maxHeartbeats 4000000 in
theorem s3_v42 : 𝔹6 main_v42 = agg64Of (𝔹5 main_v1) (𝔹5 main_v3) (𝔹5 main_v32) := by
  show StableHlo.after hostOps3 (W5 m ρ c) (Proc.devRef .tc main_v42) = _
  generalize W5 m ρ c = Wp
  dsimp only [hostOps3]; after_results_simp <;> rfl

theorem s3_v43 : 𝔹6 main_v43 = shapeCast S1x64 (𝔹5 main_arg10) shapeCasts_S64_S1x64 := by
  show StableHlo.after hostOps3 (W5 m ρ c) (Proc.devRef .tc main_v43) = _
  generalize W5 m ρ c = Wp
  dsimp only [hostOps3]; after_results_simp <;> rfl

theorem s3_v7 : 𝔹6 main_v7 = 𝔹5 main_v7 := by host_keeps
theorem s3_v31 : 𝔹6 main_v31 = 𝔹5 main_v31 := by host_keeps
theorem s3_arg9 : 𝔹6 main_arg9 = 𝔹5 main_arg9 := by host_keeps

/-! ## The last layer's launch -/

theorem r3_v44 : 𝔹7 main_v44 = combine (𝔹6 main_v42) (𝔹6 main_v7) (𝔹6 main_v31) (𝔹6 main_arg9) (𝔹6 main_v43) :=
  (W7_arr m ρ c 5).trans (Region3.value (V6 m ρ) c)

/-! ## The seven steps composed -/

/-- The result buffer at the last segment boundary holds the network of the argument arrays as launched. -/
theorem result_eq : 𝔹7 main_v44
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  rw [r3_v44, s3_v42, s3_v43, s3_v7, s3_v31, s3_arg9,
    r2_v32, r2_v31, r2_v1, r2_v3, r2_v7, r2_arg9, r2_arg10,
    r1_v31, r1_v7, r1_v1, r1_v3, r1_arg8, r1_arg9, r1_arg10,
    s1_v29, s1_v30, s1_v1, s1_v3, s1_v7, s1_v19, s1_arg5, s1_arg6, s1_arg8, s1_arg9, s1_arg10,
    r0_v19, r0_v7, r0_v1, r0_v3, r0_arg5, r0_arg6, r0_arg7, r0_arg8, r0_arg9, r0_arg10,
    s0_v1, s0_v3, s0_v7, s0_v17, s0_v18, s0_arg0, s0_arg2, s0_arg3, s0_arg5, s0_arg6, s0_arg7, s0_arg8, s0_arg9, s0_arg10]
  rfl

/-- THE KERNEL'S RUN, READ: every weakly fair execution ends, nothing faulting, with the result buffer at the network of
    the arguments and the arguments as launched. -/
theorem run : θ_run defs (onTc (τ := τ) (main (F := Ideal))) ⟨m, fun _ => 0, ρ⟩ (fun r => ∀ c : Dev nD,
      r.2.mem ((c.tc : Thread nD τ).loc main_v44)
        = network (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (KernelRun.run_named m ρ)

end Cert.Sage.KernelValue

end
-- ==== Proof.LibSageColumn.lean ====
/-
  A mean-aggregating graph-convolution layer in a host program's spelling that keeps the degrees as a column, read at
  an entry, for any sizes.

  The degrees arrive as an `n × 1` column; the program floors them against the spread scalar `one`, spreads the column along
  the row, divides the table of neighbour sums by it, takes two plain `dot_general`s, adds them, and adds the bias vector
  kept as a `1 × c` row and spread down the rows.  At `(p, q)` that is
  `(∑ⱼ M p j / max (d p) one · Wl j q + ∑ⱼ X p j · Wr j q) + b q`.
-/
import proofs.«131360_j60610578481667_2_alg».proof.Proof.LibSageLayer
import proofs.«131360_j60610578481667_2_alg».proof.Proof.LibHostForms

noncomputable section

open scoped BigOperators

namespace Cert.Lib.SageColumn

open Idealize.ShloMosaic Idealize.ShloMosaic.ValueIdx Cert.Lib Cert.Lib.SageLayer

/-- THE HOST PROGRAM'S SPELLING with the degrees a column, read at `(p, q)`. -/
theorem host_col_apply {n k c : ℕ} (D : DotDims ⟨2, ![n, k]⟩ ⟨2, ![k, c]⟩ ⟨2, ![n, c]⟩) (hD : D = DotDims.plain n k c)
    (M X : FVec Ideal ⟨2, ![n, k]⟩ .f32) (dcol : FVec Ideal ⟨2, ![n, 1]⟩ .f32) (Wl Wr : FVec Ideal ⟨2, ![k, c]⟩ .f32)
    (b : FVec Ideal ⟨1, ![c]⟩ .f32) (one : BitVec 32)
    (h0 : (⟨0, ![]⟩ : Shape).BroadcastsInDim ⟨2, ![n, 1]⟩ (![] : Fin 0 → Fin (⟨2, ![n, 1]⟩ : Shape).rank))
    (h2 : (⟨2, ![n, 1]⟩ : Shape).BroadcastsInDim ⟨2, ![n, k]⟩ (![0, 1] : Fin 2 → Fin (⟨2, ![n, k]⟩ : Shape).rank))
    (h3 : (⟨1, ![c]⟩ : Shape).BroadcastsInDim ⟨2, ![1, c]⟩ (![1] : Fin 1 → Fin (⟨2, ![1, c]⟩ : Shape).rank))
    (h4 : (⟨2, ![1, c]⟩ : Shape).BroadcastsInDim ⟨2, ![n, c]⟩ (![0, 1] : Fin 2 → Fin (⟨2, ![n, c]⟩ : Shape).rank))
    (p : Fin n) (q : Fin c) :
    addf (addf
        (Host.dotGeneral D none
          (Host.divf (F := Ideal) M (broadcastInDim ⟨2, ![n, k]⟩ ![0, 1] h2
            (maximumf dcol (broadcastInDim ⟨2, ![n, 1]⟩ ![] h0 (constant (F := Ideal) ⟨0, ![]⟩ .f32 one))))) Wl)
        (Host.dotGeneral D none X Wr))
      (broadcastInDim ⟨2, ![n, c]⟩ ![0, 1] h4 (broadcastInDim ⟨2, ![1, c]⟩ ![1] h3 b)) (ix2 p q)
    = sageAt M X (fun r => dcol (ix2 r (0 : Fin 1))) Wl Wr (fun s => b (ix1 s)) (Ideal.ofBits .f32 one) p q := by
  show (Host.dotGeneral D none _ Wl (ix2 p q) + Host.dotGeneral D none X Wr (ix2 p q))
      + broadcastInDim ⟨2, ![n, c]⟩ ![0, 1] h4 (broadcastInDim ⟨2, ![1, c]⟩ ![1] h3 b) (ix2 p q) = _
  rw [HostForms.plain_dotGeneral_apply D hD none _ Wl p q, HostForms.plain_dotGeneral_apply D hD none X Wr p q,
    HostForms.bcast_row_chain_apply b h3 h4 p q]
  unfold sageAt
  refine congrArg (· + b (ix1 q)) (congrArg₂ (· + ·) (Finset.sum_congr rfl fun j _ => ?_) rfl)
  show Ideal.div (M (ix2 p j)) (broadcastInDim ⟨2, ![n, k]⟩ ![0, 1] h2
      (maximumf dcol (broadcastInDim ⟨2, ![n, 1]⟩ ![] h0 (constant (F := Ideal) ⟨0, ![]⟩ .f32 one))) (ix2 p j)) * Wl (ix2 j q) = _
  rw [HostForms.bcast_col_spread_apply _ h2 p j]
  show Ideal.div (M (ix2 p j)) (max (dcol (ix2 p (0 : Fin 1)))
      (broadcastInDim ⟨2, ![n, 1]⟩ ![] h0 (constant (F := Ideal) ⟨0, ![]⟩ .f32 one) (ix2 p (0 : Fin 1)))) * Wl (ix2 j q) = _
  rw [HostForms.bcast_scalar_apply _ h0 (ix2 p (0 : Fin 1))]
  rfl

end Cert.Lib.SageColumn

end
-- ==== Proof.LibScatterAddRows.lean ====
/-
  Rows added into a table at the rows a column of positions names, read at an entry, for any sizes.

  The updates are an `E × C` array, one row per position; the positions are an `E × 1` column of integers; the operand is
  an `N × C` table. Update row `e` is added into the table's row `idx[e, 0]`, read as a signed integer and NOT clamped: a
  position outside `[0, N)` adds nothing. Over the extended reals the result at `(r, p)` is therefore the operand's
  entry plus the sum, over the positions `e` whose start is exactly `r`, of the update's entry `(e, p)`: the column
  coordinate passes through untouched, which is why the same accumulation done on a wider table restricts to it
  column by column.
-/
import Idealize.ShloMosaic.Lib.ValueIdx
import Idealize.ShloMosaic.PureOps.Ideal

noncomputable section

open scoped BigOperators

namespace Cert.Lib.ScatterAddRows

open Idealize.ShloMosaic Idealize.ShloMosaic.ValueIdx

/-- The dimension numbers of a row accumulation: operand `[N, C]`, positions `[E, 1]` (the unit axis holds the one
    component of a start index, which addresses the operand's rows), updates `[E, C]`; each update window is one whole
    row. -/
abbrev rowsScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- On the row axis the window of update `(e, q)` starts at the position `idx[e, 0]`, read signed. -/
theorem start_row : (rowsScatter N E C wf).start (ix2 e q) idx 0 = (idx (ix2 e ⟨0, Nat.one_pos⟩)).toInt := by
  unfold ScatterDims.start
  rw [dif_pos (show (0 : Fin 2) ∈ (rowsScatter N E C wf).scatterDimsToOperandDims from List.mem_singleton.mpr rfl)]
  have hsi : (rowsScatter N E C wf).siIdx (ix2 e q) ⟨List.idxOf (0 : Fin 2) (rowsScatter N E C wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis it starts at zero: no position component addresses the columns. -/
theorem start_col : (rowsScatter N E C wf).start (ix2 e q) idx 1 = 0 := by
  unfold ScatterDims.start
  have h10 : ¬ (1 : Fin 2) ∈ ([0] : List (Fin 2)) := by decide
  rw [dif_neg (show ¬ (1 : Fin 2) ∈ (rowsScatter N E C wf).scatterDimsToOperandDims from h10)]

/-- The row axis is inserted: the window has no extent along it. -/
theorem window_row : (rowsScatter N E C wf).window (ix2 e q) 0 = 0 := by
  unfold ScatterDims.window
  have h0 : ¬ (0 : Fin 2) ∈ (rowsScatter N E C wf).sKept := by
    simp [ScatterDims.sKept, Shape.kept, List.mem_filter]
  rw [dif_neg h0]

/-- Along the columns the window coordinate of update `(e, q)` is `q`. -/
theorem window_col : (rowsScatter N E C wf).window (ix2 e q) 1 = q.val := by
  unfold ScatterDims.window
  have h1 : (1 : Fin 2) ∈ (rowsScatter N E C wf).sKept := by
    simp [ScatterDims.sKept, Shape.kept, List.mem_filter, List.mem_finRange]
  rw [dif_pos h1]
  have key : ∀ (k : Nat) (hk : k < ([1] : List (Fin 2)).length), (ix2 e q (([1] : List (Fin 2))[k]'hk)).val = q.val := by
    intro k hk
    have hk0 : k = 0 := by
      have : k < 1 := hk
      omega
    subst hk0; rfl
  exact key _ _

/-- WHERE AN UPDATE LANDS: update `(e, q)` lands on `(r, p)` exactly when its position is `r` and its column is `p`. -/
theorem resultIdx?_eq_some_iff (r : Fin N) (p : Fin C) :
    (rowsScatter N E C wf).resultIdx? (ix2 e q) idx = some (ix2 r p)
      ↔ (idx (ix2 e ⟨0, Nat.one_pos⟩)).toInt = (r.val : Int) ∧ q = p := by
  have hN : (⟨2, ![N, C]⟩ : Shape).size 0 = N := rfl
  have hC : (⟨2, ![N, C]⟩ : Shape).size 1 = C := rfl
  have hr := r.isLt
  have hq := q.isLt
  unfold ScatterDims.resultIdx?
  split
  · rename_i h
    rw [Option.some.injEq]
    constructor
    · intro hf
      have h0 := congrArg (fun f => (f 0).val) hf
      have h1 := congrArg (fun f => (f 1).val) hf
      simp only [start_row, start_col, window_row, window_col] at h0 h1
      have hh := (h 0).1
      rw [start_row, window_row] at hh
      have e0 : ((ix2 r p : (⟨2, ![N, C]⟩ : Shape).Idx) 0).val = r.val := rfl
      have e1 : ((ix2 r p : (⟨2, ![N, C]⟩ : Shape).Idx) 1).val = p.val := rfl
      rw [e0] at h0
      rw [e1] at h1
      refine ⟨by omega, Fin.ext (by omega)⟩
    · rintro ⟨hs, rfl⟩
      funext a
      refine Fin.ext ?_
      match a with
      | ⟨0, _⟩ =>
        show ((rowsScatter N E C wf).start (ix2 e q) idx 0 + ((rowsScatter N E C wf).window (ix2 e q) 0 : Nat)).toNat = r.val
        rw [start_row, window_row, hs]; omega
      | ⟨1, _⟩ =>
        show ((rowsScatter N E C wf).start (ix2 e q) idx 1 + ((rowsScatter N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (rowsScatter N E C wf).start (ix2 e q) idx 0 + ((rowsScatter N E C wf).window (ix2 e q) 0 : Nat)
          ∧ (rowsScatter N E C wf).start (ix2 e q) idx 0 + ((rowsScatter N E C wf).window (ix2 e q) 0 : Nat) < ((⟨2, ![N, C]⟩ : Shape).size 0 : Nat)
        rw [start_row, window_row, hs, hN]; omega
      | ⟨1, _⟩ =>
        show 0 ≤ (rowsScatter N E C wf).start (ix2 e q) idx 1 + ((rowsScatter N E C wf).window (ix2 e q) 1 : Nat)
          ∧ (rowsScatter N E C wf).start (ix2 e q) idx 1 + ((rowsScatter N E C wf).window (ix2 e q) 1 : Nat) < ((⟨2, ![N, C]⟩ : Shape).size 1 : Nat)
        rw [start_col, window_col, hC]; omega

end

/-- THE ACCUMULATION READ AT `(r, p)`: the operand's entry plus the sum, over the positions that name row `r`, of the
    update's entry in column `p`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (r : Fin N) (p : Fin C) :
    Host.scatterAdd (rowsScatter N E C wf) x idx upd (ix2 r p)
      = x (ix2 r p) + ∑ e : Fin E, if (idx (ix2 e ⟨0, Nat.one_pos⟩)).toInt = (r.val : Int) then upd (ix2 e p) else 0 := by
  show Ideal.hostScatterAdd (rowsScatter N E C wf) x idx upd (ix2 r p) = _
  unfold Ideal.hostScatterAdd
  congr 1
  rw [Finset.sum_filter, sum_idx2]
  refine Finset.sum_congr rfl fun e _ => ?_
  simp only [resultIdx?_eq_some_iff]
  by_cases hs : (idx (ix2 e ⟨0, Nat.one_pos⟩)).toInt = (r.val : Int)
  · simp only [hs, true_and, if_true]
    rw [Finset.sum_ite_eq' Finset.univ p (fun q => upd (ix2 e q))]
    simp
  · simp only [hs, false_and, if_false, Finset.sum_const_zero]

end Cert.Lib.ScatterAddRows

end
-- ==== Proof.LibTakeRows.lean ====
/-
  Looking rows up in a table: two operations read at an entry, for any sizes.

  A lookup of rows of an `N × C` table at a column of `R` start positions gives an `R × C` array whose row `r` is the
  table's row at position `r`'s start index, that index read as a signed integer and clamped into `[0, N − 1]`. And a
  conjunction taken along some axes of an array of one-bit flags, started from the flag one, is one wherever every flag
  is one.
-/
import Idealize.ShloMosaic.Lib.ValueIdx
import Idealize.ShloMosaic.Lib.ReduceAll

noncomputable section

namespace Cert.Lib.TakeRows

open Idealize.ShloMosaic Idealize.ShloMosaic.ValueIdx

/-! ## A conjunction of flags that are all one -/

/-- A left fold of the conjunction over flags that are all one, started from one, is one. -/
theorem foldl_andi_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_all_one f l fun n hn => h n (List.mem_cons_of_mem _ hn)

/-- A conjunction along any axes of an array of flags that are all one, started from one, is one at every result
    index. -/
theorem reduce_andi_all_one {s t u : Shape} {axes : List (Fin s.rank)} (x : s.Idx → BitVec 1) (init : u.Idx → BitVec 1)
    (h : s.ReducesTo axes t) (hu : 0 < u.numel) (j : t.Idx) (hx : ∀ i, x i = 1#1) (hinit : init (Shape.Idx.first hu) = 1#1) :
    Host.reduce IntOp.andi x init h hu j = 1#1 := by
  rw [Host.reduce_eq_foldl, hinit]
  exact foldl_andi_all_one x _ fun i _ => hx i

/-! ## Rows of a table at a column of start positions -/

section Rows
variable {α : Type}

/-- The dimension numbers of a row lookup: operand `[N, C]`, start positions `[R, 1]` (the unit axis holds the one
    component of a start index, which addresses the operand's rows), result `[R, C]`; each slice is one whole row. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE LOOKUP READ AT `(r, p)`: the table at the row `idx[r, 0]` names — read signed and clamped into `[0, N − 1]` —
    and column `p`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (p : Fin C) :
    Host.gather (rowsDims N R C wf) x idx (ix2 r p)
      = x (ix2 ⟨min (idx (ix2 r ⟨0, Nat.one_pos⟩)).toInt.toNat (N - 1), by omega⟩ p) := by
  unfold Host.gather
  congr 1
  funext a
  refine Fin.ext ?_
  match a with
  | ⟨0, _⟩ =>
    show (rowsDims N R C wf).start (ix2 r p) idx 0 + (rowsDims N R C wf).batchCoord (ix2 r p) 0
      + (rowsDims N R C wf).offCoord (ix2 r p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 r p) ⟨List.idxOf (0 : Fin 2) (rowsDims N R C wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    show (rowsDims N R C wf).start (ix2 r p) idx 1 + (rowsDims N R C wf).batchCoord (ix2 r p) 1
      + (rowsDims N R C wf).offCoord (ix2 r p) 1 = p.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rowsDims N R C wf).startIndexMap from h10)]
    unfold GatherDims.offCoord
    rw [dif_pos (show (1 : Fin 2) ∈ (rowsDims N R C wf).sKept from
      (GatherDims.mem_sKept _ _).mpr ⟨h10, List.not_mem_nil⟩)]
    have key : ∀ (q : Nat) (hq : q < ([1] : List (Fin 2)).length), (ix2 r p (([1] : List (Fin 2))[q]'hq)).val = p.val := by
      intro q hq
      have hq0 : q = 0 := by
        have : q < 1 := hq
        omega
      subst hq0; rfl
    simp only [Nat.zero_add]
    exact key _ _

end Rows

end Cert.Lib.TakeRows

end
-- ==== Proof.LibMeanProject.lean ====
/-
  Averaging the selected rows of a table commutes with multiplying the table by a real matrix.

  Take finitely many rows `h e` of real numbers, a selection of some of them, a real column `w` and a real divisor
  `d ≠ 0`.  Summing the selected rows' inner products with `w` and dividing the total by `d` gives the same extended real as
  dividing each selected column sum by `d` first and taking the inner product with `w` afterwards: both are the real number
  `(∑ₑ ∑ₖ h e k · w k) / d`.  Over the extended reals the statement needs the entries to be real — with an infinite weight
  and two selected entries of opposite sign the first side is `(⊤ + ⊥) / d` and the second `0 · ⊤` — which is why it is stated
  for coerced reals.  Beside it: a finite sum of coerced reals is the coerced sum, the hyperbolic tangent of any extended
  real is a real number, the f32 words of one and zero, a count of selected positions started from zero and floored at
  one is a real number that is not zero.
-/
import Mathlib.Algebra.BigOperators.Fin
import Mathlib.Algebra.BigOperators.Field
import Mathlib.Data.EReal.Operations
import Idealize.ShloMosaic.PureOps.Ideal
import Idealize.ShloMosaic.PureOps.Ideal.Laws
import Idealize.ShloMosaic.Lib.IdealHost

noncomputable section

open scoped BigOperators

namespace Cert.Lib.MeanProject

open Idealize.ShloMosaic

/-- A finite sum of coerced reals is the coercion of the real sum. -/
theorem coe_sum {ι : Type} (s : Finset ι) (f : ι → ℝ) :
    (∑ i ∈ s, ((f i : ℝ) : EReal)) = ((∑ i ∈ s, f i : ℝ) : EReal) := by
  classical
  refine Finset.induction_on s (by simp) fun a s ha ih => ?_
  rw [Finset.sum_insert ha, Finset.sum_insert ha, ih, EReal.coe_add]

/-- A finite sum of products of coerced reals is the coercion of the real sum of products. -/
theorem coe_sum_mul {ι : Type} (s : Finset ι) (f g : ι → ℝ) :
    (∑ i ∈ s, ((f i : ℝ) : EReal) * ((g i : ℝ) : EReal)) = ((∑ i ∈ s, f i * g i : ℝ) : EReal) := by
  rw [← coe_sum]
  exact Finset.sum_congr rfl fun i _ => (EReal.coe_mul _ _).symm

/-- A sum over selected positions of coerced reals is the coercion of the real sum over the selected positions. -/
theorem coe_sum_ite {ι : Type} (s : Finset ι) (sel : ι → Prop) [DecidablePred sel] (f : ι → ℝ) :
    (∑ i ∈ s, if sel i then ((f i : ℝ) : EReal) else 0) = ((∑ i ∈ s, if sel i then f i else 0 : ℝ) : EReal) := by
  rw [← coe_sum]
  refine Finset.sum_congr rfl fun i _ => ?_
  split <;> simp

/-- The hyperbolic tangent of an extended real is a real number: `-1` and `1` at the infinities. -/
theorem tanh_real (x : EReal) : ∃ r : ℝ, Ideal.tanh x = (r : EReal) := by
  induction x using EReal.rec with
  | bot => exact ⟨-1, by simp⟩
  | coe r => exact ⟨Real.tanh r, rfl⟩
  | top => exact ⟨1, by simp⟩

/-- The f32 word `0x3F800000` is the coerced real one. -/
theorem ofBits_one_f32_coe : Ideal.ofBits .f32 0x3F800000#32 = ((1 : ℝ) : EReal) := by
  rw [Ideal.ofBits_one_f32]; rfl

/-- Counting the selected positions from zero with unit weights, then flooring at one: a real number that is not zero. -/
theorem count_floor_real {ι : Type} (s : Finset ι) (sel : ι → Prop) [DecidablePred sel] :
    ∃ d : ℝ, d ≠ 0 ∧ max ((0 : EReal) + ∑ i ∈ s, if sel i then (1 : EReal) else 0) 1 = (d : EReal) := by
  refine ⟨max (∑ i ∈ s, if sel i then (1 : ℝ) else 0) 1, ?_, ?_⟩
  · have : (1 : ℝ) ≤ max (∑ i ∈ s, if sel i then (1 : ℝ) else 0) 1 := le_max_right _ _
    intro h; rw [h] at this; norm_num at this
  · rw [zero_add]
    have h1 : (∑ i ∈ s, if sel i then (1 : EReal) else 0) = ((∑ i ∈ s, if sel i then (1 : ℝ) else 0 : ℝ) : EReal) := by
      rw [← coe_sum_ite]
      refine Finset.sum_congr rfl fun i _ => ?_
      split <;> simp
    rw [h1, show (1 : EReal) = ((1 : ℝ) : EReal) from rfl]
    exact (EReal.coe_strictMono.monotone.map_max).symm

/-- THE LAW: the selected rows' inner products with `w`, summed from zero and divided by `d`, against the selected column
    sums from zero, each divided by `d`, in an inner product with `w`. -/
theorem project_then_mean {E K : ℕ} (sel : Fin E → Prop) [DecidablePred sel] (h : Fin E → Fin K → ℝ) (w : Fin K → ℝ)
    (d : ℝ) (hd : d ≠ 0) :
    Ideal.div ((0 : EReal) + ∑ e : Fin E, if sel e then ∑ k : Fin K, ((h e k : ℝ) : EReal) * ((w k : ℝ) : EReal) else 0) (d : EReal)
      = ∑ k : Fin K, Ideal.div ((0 : EReal) + ∑ e : Fin E, if sel e then ((h e k : ℝ) : EReal) else 0) (d : EReal) * ((w k : ℝ) : EReal) := by
  have hL : (∑ e : Fin E, if sel e then ∑ k : Fin K, ((h e k : ℝ) : EReal) * ((w k : ℝ) : EReal) else 0)
      = ((∑ e : Fin E, if sel e then ∑ k : Fin K, h e k * w k else 0 : ℝ) : EReal) := by
    rw [← coe_sum_ite]
    refine Finset.sum_congr rfl fun e _ => ?_
    rw [coe_sum_mul]
  have hR : ∀ k : Fin K, Ideal.div ((0 : EReal) + ∑ e : Fin E, if sel e then ((h e k : ℝ) : EReal) else 0) (d : EReal) * ((w k : ℝ) : EReal)
      = (((∑ e : Fin E, if sel e then h e k else 0) * (1 / d) * w k : ℝ) : EReal) := by
    intro k
    rw [zero_add, coe_sum_ite, Ideal.div_coe hd, ← EReal.coe_mul, ← EReal.coe_mul]
  rw [hL, zero_add, Ideal.div_coe hd, ← EReal.coe_mul, Finset.sum_congr rfl fun k _ => hR k, coe_sum]
  refine congrArg _ ?_
  rw [Finset.sum_mul]
  have : ∀ e : Fin E, (if sel e then ∑ k : Fin K, h e k * w k else 0) * (1 / d)
      = ∑ k : Fin K, (if sel e then h e k else 0) * (1 / d) * w k := by
    intro e
    split
    · rw [Finset.sum_mul]; exact Finset.sum_congr rfl fun k _ => by ring
    · simp
  rw [Finset.sum_congr rfl fun e _ => this e, Finset.sum_comm]
  refine Finset.sum_congr rfl fun k _ => ?_
  rw [Finset.sum_mul, Finset.sum_mul]

end Cert.Lib.MeanProject

end
-- ==== Proof.LibAggregateProject.lean ====
/-
  Summing the looked-up rows of a matrix product is the product of the summed looked-up rows, for any sizes.

  Take an `N × K` table `H` and a `K × C` matrix `W`, both of real numbers, and let `P` be their product.  Every one of `E`
  positions names a source row (read signed and clamped into the table) and a target row (read signed, not clamped: a
  position outside the table adds nothing).  Adding `P`'s source rows into the targets' rows of a zero `N × C` table and
  dividing entry `(p, q)` by a real `d ≠ 0` gives the same extended real as adding `H`'s source rows into a zero `N × K` table,
  dividing row `p` by `d` and taking its inner product with column `q` of `W`: the sum over the positions and the sum over
  the shared axis are interchanged, which is sound because every term is a real number.
-/
import proofs.«131360_j60610578481667_2_alg».proof.Proof.LibScatterAddRows
import proofs.«131360_j60610578481667_2_alg».proof.Proof.LibTakeRows
import proofs.«131360_j60610578481667_2_alg».proof.Proof.LibMeanProject

noncomputable section

open scoped BigOperators

namespace Cert.Lib.AggregateProject

open Idealize.ShloMosaic Idealize.ShloMosaic.ValueIdx Cert.Lib.ScatterAddRows Cert.Lib.TakeRows Cert.Lib.MeanProject

/-- The accumulated, divided product against the product with the accumulated, divided table. -/
theorem aggregate_project {N E K C w : ℕ} (hN : 0 < N)
    (wfSK : ScatterDims.WF ⟨2, ![N, K]⟩ ⟨2, ![E, 1]⟩ ⟨2, ![E, K]⟩ [1] [0] [0] 1)
    (wfSC : ScatterDims.WF ⟨2, ![N, C]⟩ ⟨2, ![E, 1]⟩ ⟨2, ![E, C]⟩ [1] [0] [0] 1)
    (wfGK : GatherDims.WF ⟨2, ![N, K]⟩ ⟨2, ![E, 1]⟩ ⟨2, ![E, K]⟩ [1] [0] [] [0] [] 1 ![1, K])
    (wfGC : GatherDims.WF ⟨2, ![N, C]⟩ ⟨2, ![E, 1]⟩ ⟨2, ![E, C]⟩ [1] [0] [] [0] [] 1 ![1, C])
    (H : FVec Ideal ⟨2, ![N, K]⟩ .f32) (W : FVec Ideal ⟨2, ![K, C]⟩ .f32) (P : FVec Ideal ⟨2, ![N, C]⟩ .f32)
    (hH : ∀ i, ∃ r : ℝ, H i = (r : EReal)) (hW : ∀ i, ∃ r : ℝ, W i = (r : EReal))
    (hP : ∀ (n : Fin N) (q : Fin C), P (ix2 n q) = ∑ k : Fin K, H (ix2 n k) * W (ix2 k q))
    (zK : FVec Ideal ⟨2, ![N, K]⟩ .f32) (zC : FVec Ideal ⟨2, ![N, C]⟩ .f32) (hzK : ∀ i, zK i = 0) (hzC : ∀ i, zC i = 0)
    (src dst : IVec ⟨2, ![E, 1]⟩ w) (d : ℝ) (hd : d ≠ 0) (p : Fin N) (q : Fin C) :
    Ideal.div (Host.scatterAdd (rowsScatter N E C wfSC) zC dst (Host.gather (rowsDims N E C wfGC) P src) (ix2 p q)) (d : EReal)
      = ∑ k : Fin K, Ideal.div (Host.scatterAdd (rowsScatter N E K wfSK) zK dst (Host.gather (rowsDims N E K wfGK) H src) (ix2 p k))
          (d : EReal) * W (ix2 k q) := by
  choose hr hhr using hH
  choose wr hwr using hW
  rw [scatterAdd_rows_apply, hzC]
  simp only [scatterAdd_rows_apply, hzK, gather_rows_apply hN, hP, hhr, hwr]
  exact project_then_mean (fun e => (dst (ix2 e ⟨0, Nat.one_pos⟩)).toInt = (p.val : Int))
    (fun e k => hr (ix2 ⟨min (src (ix2 e ⟨0, Nat.one_pos⟩)).toInt.toNat (N - 1), by omega⟩ k)) (fun k => wr (ix2 k q)) d hd

end Cert.Lib.AggregateProject

end
-- ==== Proof.RefValue.lean ====
/-
  What the reference program computes is the network in the arrangement that projects the last layer first.

  The reference's first two layers are spelled as the kernel's are, up to the host's way of writing them: the degrees kept
  as a column and floored against a spread scalar, plain `dot_general`s, the bias vector kept as a row.  Read at an entry
  each is the dense layer of the same neighbour sums and degrees.  Its last layer aggregates the 128-wide table, divides by
  the floored degree and then multiplies by the weights; the network multiplies by the weights first and aggregates the
  64-wide product.  The two agree because the table's entries are hyperbolic tangents, hence real numbers, the weights are
  real numbers by the precondition, and the floored degree is a real number that is not zero: for reals the sum over a
  node's edges and the sum over the shared axis may be interchanged.
-/
import proofs.«131360_j60610578481667_2_alg».proof.Proof.Gen.ReferenceIdeal.Read
import proofs.«131360_j60610578481667_2_alg».proof.Proof.Spec
import proofs.«131360_j60610578481667_2_alg».proof.Proof.LibSageColumn
import proofs.«131360_j60610578481667_2_alg».proof.Proof.LibAggregateProject
import proofs.«131360_j60610578481667_2_alg».proof.Proof.LibHostForms
import proofs.«131360_j60610578481667_2_alg».proof.Proof.LibMeanProject
import Idealize.ShloMosaic.Lib.IdealHost

noncomputable section

open scoped BigOperators

namespace Cert.Sage.RefValue

open Idealize.ShloMosaic Idealize.ShloMosaic.ValueIdx Cert.KernelIdeal Cert.KernelIdeal.Gen
open Cert.Lib Cert.Lib.SageLayer Cert.Lib.ScatterAddRows Cert.Lib.TakeRows Cert.Lib.MeanProject Cert.Sage

/-! ## The floored degree is a real number that is not zero -/

theorem zeros1_apply (i : S100000x1.Idx) :
    broadcastInDim S100000x1 ![] bcast_S_S100000x1 (constant (F := Ideal) S_ .f32 0x00000000#32) i = 0 := by
  rw [HostForms.bcast_scalar_apply]; exact Ideal.ofBits_zero_f32

theorem zeros128_apply (i : S100000x128.Idx) :
    broadcastInDim S100000x128 ![] bcast_S_S100000x128 (constant (F := Ideal) S_ .f32 0x00000000#32) i = 0 := by
  rw [HostForms.bcast_scalar_apply]; exact Ideal.ofBits_zero_f32

theorem zeros64_apply (i : S100000x64.Idx) :
    broadcastInDim S100000x64 ![] bcast_S_S100000x64 (constant (F := Ideal) S_ .f32 0x00000000#32) i = 0 := by
  rw [HostForms.bcast_scalar_apply]; exact Ideal.ofBits_zero_f32

theorem ones_apply (i : S1600000x1.Idx) :
    broadcastInDim S1600000x1 ![] bcast_S_S1600000x1 (constant (F := Ideal) S_ .f32 0x3F800000#32) i = 1 := by
  rw [HostForms.bcast_scalar_apply]; exact Ideal.ofBits_one_f32

/-- A node's degree is a count of edges; floored at one it is a real number that is not zero. -/
theorem degree_floor_real (d : IVec S1600000 32) (p : Fin 100000) :
    ∃ δ : ℝ, δ ≠ 0 ∧ max (degreeOf d (ix2 p (0 : Fin 1))) oneW = (δ : EReal) := by
  have hdeg : degreeOf d (ix2 p (0 : Fin 1))
      = 0 + ∑ e : Fin 1600000, if (dstColOf d (ix2 e ⟨0, Nat.one_pos⟩)).toInt = (p.val : Int) then (1 : EReal) else 0 := by
    refine (scatterAdd_rows_apply (N := 100000) (E := 1600000) (C := 1) scatter_S100000x1_S1600000x1_S1600000x1_1_0_0_1_wf
      (broadcastInDim S100000x1 ![] bcast_S_S100000x1 (constant (F := Ideal) S_ .f32 0x00000000#32)) (dstColOf d)
      (broadcastInDim S1600000x1 ![] bcast_S_S1600000x1 (constant (F := Ideal) S_ .f32 0x3F800000#32)) p (0 : Fin 1)).trans ?_
    rw [zeros1_apply]
    exact congrArg (fun t => (0 : EReal) + t) (Finset.sum_congr rfl fun e _ => by rw [ones_apply])
  rw [hdeg, show oneW = (1 : EReal) from Ideal.ofBits_one_f32]
  exact count_floor_real Finset.univ _

/-! ## Aggregating the projected table against projecting the aggregated one -/

/-- The neighbour sums of a product, divided by a real, against the product with the divided neighbour sums. -/
theorem agg_project (s d : IVec S1600000 32) (H : FVec Ideal S100000x128 .f32) (W : FVec Ideal S128x64 .f32)
    (hH : ∀ i, ∃ r : ℝ, H i = (r : EReal)) (hW : ∀ i, ∃ r : ℝ, W i = (r : EReal)) (δ : ℝ) (hδ : δ ≠ 0)
    (p : Fin 100000) (q : Fin 64) :
    Ideal.div (agg64Of s d (project H W) (ix2 p q)) (δ : EReal)
      = ∑ j : Fin 128, Ideal.div (agg128Of s d H (ix2 p j)) (δ : EReal) * W (ix2 j q) :=
  AggregateProject.aggregate_project (N := 100000) (E := 1600000) (K := 128) (C := 64) (by decide)
    scatter_S100000x128_S1600000x1_S1600000x128_1_0_0_1_wf scatter_S100000x64_S1600000x1_S1600000x64_1_0_0_1_wf
    gather_S100000x128_S1600000x1_S1600000x128_1_0_n_n_0_1_1128_wf gather_S100000x64_S1600000x1_S1600000x64_1_0_n_n_0_1_164_wf
    H W (project H W) hH hW (fun _ _ => rfl)
    (broadcastInDim S100000x128 ![] bcast_S_S100000x128 (constant (F := Ideal) S_ .f32 0x00000000#32))
    (broadcastInDim S100000x64 ![] bcast_S_S100000x64 (constant (F := Ideal) S_ .f32 0x00000000#32))
    zeros128_apply zeros64_apply (srcColOf s) (dstColOf d) δ hδ p q

/-- THE LAST LAYER'S TWO ARRANGEMENTS AGREE at every entry, for a real table and real neighbour weights. -/
theorem last_layer (s d : IVec S1600000 32) (H : FVec Ideal S100000x128 .f32) (Wl Wr : FVec Ideal S128x64 .f32)
    (b : FVec Ideal S64 .f32) (hH : ∀ i, ∃ r : ℝ, H i = (r : EReal)) (hW : ∀ i, ∃ r : ℝ, Wl i = (r : EReal))
    (p : Fin 100000) (q : Fin 64) :
    combineAt (agg64Of s d (project H Wl)) (degreeOf d) H Wr (shapeCast S1x64 b shapeCasts_S64_S1x64) p q
      = sageAt (n := 100000) (k := 128) (c := 64) (agg128Of s d H) H (fun r => degreeOf d (ix2 r (0 : Fin 1))) Wl Wr
          (fun t => b (ix1 t)) oneW p q := by
  obtain ⟨δ, hδ0, hδ⟩ := degree_floor_real d p
  unfold combineAt sageAt
  dsimp only
  rw [hδ, shapeCast_vec_row_apply b shapeCasts_S64_S1x64 q, agg_project s d H Wl hH hW δ hδ0 p q,
    add_comm (∑ j : Fin 128, H (ix2 p j) * Wr (ix2 j q))]

/-! ## The reference's layers -/

/-- A dense layer in the reference's spelling is the dense layer. -/
theorem ref_layer (M X : FVec Ideal S100000x128 .f32) (dcol : FVec Ideal S100000x1 .f32) (Wl Wr : FVec Ideal S128x128 .f32)
    (b : FVec Ideal S128 .f32) :
    Host.tanh (F := Ideal) (addf (addf
        (Host.dotGeneral Cert.ReferenceIdeal.dot_S100000x128_S128x128_S100000x128_1_0_0_1_n_n none
          (Host.divf (F := Ideal) M (broadcastInDim S100000x128 ![0, 1] Cert.ReferenceIdeal.Gen.bcast_S100000x1_S100000x128_0_1
            (maximumf dcol (broadcastInDim S100000x1 ![] Cert.ReferenceIdeal.Gen.bcast_S_S100000x1 (constant (F := Ideal) S_ .f32 0x3F800000#32))))) Wl)
        (Host.dotGeneral Cert.ReferenceIdeal.dot_S100000x128_S128x128_S100000x128_1_0_0_1_n_n none X Wr))
      (broadcastInDim S100000x128 ![0, 1] Cert.ReferenceIdeal.Gen.bcast_S1x128_S100000x128_0_1 (broadcastInDim S1x128 ![1] Cert.ReferenceIdeal.Gen.bcast_S128_S1x128_1 b)))
    = dense M dcol X Wl Wr (shapeCast S1x128 b shapeCasts_S128_S1x128) := by
  funext i
  obtain ⟨p, q, rfl⟩ : ∃ (p : Fin 100000) (q : Fin 128), i = ix2 p q := ⟨i 0, i 1, eq_ix2 i⟩
  refine congrArg Ideal.tanh ((SageColumn.host_col_apply Cert.ReferenceIdeal.dot_S100000x128_S128x128_S100000x128_1_0_0_1_n_n rfl M X dcol Wl Wr b
    0x3F800000#32 Cert.ReferenceIdeal.Gen.bcast_S_S100000x1 Cert.ReferenceIdeal.Gen.bcast_S100000x1_S100000x128_0_1 Cert.ReferenceIdeal.Gen.bcast_S128_S1x128_1
    Cert.ReferenceIdeal.Gen.bcast_S1x128_S100000x128_0_1 p q).trans ?_)
  exact sageAt_congr oneW q (fun _ => rfl) (fun _ => rfl) rfl (fun _ => rfl) (fun _ => rfl)
    (shapeCast_vec_row_apply b shapeCasts_S128_S1x128 q).symm

/-- The reference's last layer read at an entry. -/
theorem ref_last_apply (M X : FVec Ideal S100000x128 .f32) (dcol : FVec Ideal S100000x1 .f32) (Wl Wr : FVec Ideal S128x64 .f32)
    (b : FVec Ideal S64 .f32) (p : Fin 100000) (q : Fin 64) :
    addf (addf
        (Host.dotGeneral Cert.ReferenceIdeal.dot_S100000x128_S128x64_S100000x64_1_0_0_1_n_n none
          (Host.divf (F := Ideal) M (broadcastInDim S100000x128 ![0, 1] Cert.ReferenceIdeal.Gen.bcast_S100000x1_S100000x128_0_1
            (maximumf dcol (broadcastInDim S100000x1 ![] Cert.ReferenceIdeal.Gen.bcast_S_S100000x1 (constant (F := Ideal) S_ .f32 0x3F800000#32))))) Wl)
        (Host.dotGeneral Cert.ReferenceIdeal.dot_S100000x128_S128x64_S100000x64_1_0_0_1_n_n none X Wr))
      (broadcastInDim S100000x64 ![0, 1] Cert.ReferenceIdeal.Gen.bcast_S1x64_S100000x64_0_1 (broadcastInDim S1x64 ![1] Cert.ReferenceIdeal.Gen.bcast_S64_S1x64_1 b)) (ix2 p q)
    = sageAt (n := 100000) (k := 128) (c := 64) M X (fun r => dcol (ix2 r (0 : Fin 1))) Wl Wr (fun t => b (ix1 t)) oneW p q :=
  SageColumn.host_col_apply Cert.ReferenceIdeal.dot_S100000x128_S128x64_S100000x64_1_0_0_1_n_n rfl M X dcol Wl Wr b
    0x3F800000#32 Cert.ReferenceIdeal.Gen.bcast_S_S100000x1 Cert.ReferenceIdeal.Gen.bcast_S100000x1_S100000x128_0_1 Cert.ReferenceIdeal.Gen.bcast_S64_S1x64_1
    Cert.ReferenceIdeal.Gen.bcast_S1x64_S100000x64_0_1 p q

/-- Every entry of a dense layer is a real number: it is a hyperbolic tangent. -/
theorem dense_real (S : FVec Ideal S100000x128 .f32) (deg : FVec Ideal S100000x1 .f32) (X : FVec Ideal S100000x128 .f32)
    (Wl Wr : FVec Ideal S128x128 .f32) (brow : FVec Ideal S1x128 .f32) (i : S100000x128.Idx) :
    ∃ r : ℝ, dense S deg X Wl Wr brow i = (r : EReal) := by
  unfold dense denseAt
  exact tanh_real _

section Stages

variable (x0 : FVec Ideal S100000x128 .f32) (x1 : IVec S2x1600000 32) (x2 x3 : FVec Ideal S128x128 .f32)
  (x4 : FVec Ideal S128 .f32) (x5 x6 : FVec Ideal S128x128 .f32) (x7 : FVec Ideal S128 .f32)
  (x8 x9 : FVec Ideal S128x64 .f32) (x10 : FVec Ideal S64 .f32)

/-- The table after the first layer. -/
abbrev h0 : FVec Ideal S100000x128 .f32 :=
  dense (agg128Of (srcVec x1) (dstVec x1) x0) (degreeOf (dstVec x1)) x0 x2 x3 (shapeCast S1x128 x4 shapeCasts_S128_S1x128)

/-- The table after the second layer. -/
abbrev h1 : FVec Ideal S100000x128 .f32 :=
  dense (agg128Of (srcVec x1) (dstVec x1) (h0 x0 x1 x2 x3 x4)) (degreeOf (dstVec x1)) (h0 x0 x1 x2 x3 x4) x5 x6
    (shapeCast S1x128 x7 shapeCasts_S128_S1x128)

/-- The reference's first layer is the dense layer of the neighbour sums and degrees of the input. -/
theorem ref_h0 : Cert.ReferenceIdeal.Read.val_main_v28 (F := Ideal) x0 x1 x2 x3 x4 = h0 x0 x1 x2 x3 x4 :=
  ref_layer (Cert.ReferenceIdeal.Read.val_main_v13 (F := Ideal) x0 x1) x0 (Cert.ReferenceIdeal.Read.val_main_v17 (F := Ideal) x1) x2 x3 x4

/-- The reference's second layer is the dense layer of the neighbour sums and degrees of the first layer's table. -/
theorem ref_h1 : Cert.ReferenceIdeal.Read.val_main_v53 (F := Ideal) x0 x1 x2 x3 x4 x5 x6 x7 = h1 x0 x1 x2 x3 x4 x5 x6 x7 := by
  refine (ref_layer (Cert.ReferenceIdeal.Read.val_main_v38 (F := Ideal) x0 x1 x2 x3 x4) (Cert.ReferenceIdeal.Read.val_main_v28 (F := Ideal) x0 x1 x2 x3 x4)
    (Cert.ReferenceIdeal.Read.val_main_v42 (F := Ideal) x1) x5 x6 x7).trans ?_
  show dense (agg128Of (srcVec x1) (dstVec x1) (Cert.ReferenceIdeal.Read.val_main_v28 (F := Ideal) x0 x1 x2 x3 x4)) (degreeOf (dstVec x1))
    (Cert.ReferenceIdeal.Read.val_main_v28 (F := Ideal) x0 x1 x2 x3 x4) x5 x6 (shapeCast S1x128 x7 shapeCasts_S128_S1x128) = _
  rw [ref_h0]

/-- The second layer's table holds real numbers: each entry is a hyperbolic tangent. -/
theorem h1_real (i : S100000x128.Idx) : ∃ r : ℝ, h1 x0 x1 x2 x3 x4 x5 x6 x7 i = (r : EReal) :=
  dense_real _ _ _ _ _ _ i

/-- THE REFERENCE'S RESULT is the network of its arguments, when the last layer's neighbour weights are real. -/
theorem ref_eq (hW : ∀ i, ∃ r : ℝ, x8 i = (r : EReal)) :
    Cert.ReferenceIdeal.Read.val_main_v77 (F := Ideal) x0 x1 x2 x3 x4 x5 x6 x7 x8 x9 x10 = network x0 x1 x2 x3 x4 x5 x6 x7 x8 x9 x10 := by
  funext i
  obtain ⟨p, q, rfl⟩ : ∃ (p : Fin 100000) (q : Fin 64), i = ix2 p q := ⟨i 0, i 1, eq_ix2 i⟩
  refine (ref_last_apply (Cert.ReferenceIdeal.Read.val_main_v63 (F := Ideal) x0 x1 x2 x3 x4 x5 x6 x7) (Cert.ReferenceIdeal.Read.val_main_v53 (F := Ideal) x0 x1 x2 x3 x4 x5 x6 x7)
    (Cert.ReferenceIdeal.Read.val_main_v67 (F := Ideal) x1) x8 x9 x10 p q).trans ?_
  show sageAt (n := 100000) (k := 128) (c := 64)
      (agg128Of (srcVec x1) (dstVec x1) (Cert.ReferenceIdeal.Read.val_main_v53 (F := Ideal) x0 x1 x2 x3 x4 x5 x6 x7))
      (Cert.ReferenceIdeal.Read.val_main_v53 (F := Ideal) x0 x1 x2 x3 x4 x5 x6 x7) (fun r => degreeOf (dstVec x1) (ix2 r (0 : Fin 1))) x8 x9
      (fun t => x10 (ix1 t)) oneW p q = _
  rw [ref_h1]
  exact (last_layer (srcVec x1) (dstVec x1) (h1 x0 x1 x2 x3 x4 x5 x6 x7) x8 x9 x10 (h1_real x0 x1 x2 x3 x4 x5 x6 x7) hW p q).symm

end Stages

end Cert.Sage.RefValue

end
-- ==== Proof.Finite.lean ====
/-
  Under the precondition the last layer's neighbour weights are real numbers.

  The precondition is a conjunction of ten flags, one per float argument: "every entry's absolute value is below +inf".
  The flag of the eighth argument is a conjunction over all its entries, so each entry `x` has `max x (-x) < ⊤`, which
  fails at both infinities: the entry is a real number.
-/
import proofs.«131360_j60610578481667_2_alg».proof.Pre_finite_inputs
import proofs.«131360_j60610578481667_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Sage.Finite

open Idealize.ShloMosaic Idealize.ShloMosaic.ValueIdx Cert.Pre_finite_inputs

instance : Subsingleton S_.Idx := ⟨fun a b => funext fun d => d.elim0⟩

/-- An extended real whose absolute value is below the f32 word of +inf is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Where the precondition's function is all ones, every entry of its eighth float argument is a real number. -/
theorem wl2_real (x0 : FVec Ideal S100000x128 .f32) (x1 : IVec S2x1600000 32) (x2 x3 : FVec Ideal S128x128 .f32)
    (x4 : FVec Ideal S128 .f32) (x5 x6 : FVec Ideal S128x128 .f32) (x7 : FVec Ideal S128 .f32)
    (x8 x9 : FVec Ideal S128x64 .f32) (x10 : FVec Ideal S64 .f32)
    (h : fn (F := Ideal) x0 x1 x2 x3 x4 x5 x6 x7 x8 x9 x10 = fun _ => 1#1) (i : S128x64.Idx) :
    ∃ r : ℝ, x8 i = (r : EReal) := by
  have h0 : fn (F := Ideal) x0 x1 x2 x3 x4 x5 x6 x7 x8 x9 x10 ix0 = 1#1 := congrFun h ix0
  unfold fn at h0; dsimp only at h0
  unfold fn_part1 at h0; dsimp only at h0
  unfold fn_part2 at h0; dsimp only at h0
  obtain ⟨h43, -⟩ := IntOp.andi_eq_one.mp h0
  obtain ⟨h38, -⟩ := IntOp.andi_eq_one.mp h43
  obtain ⟨-, h37⟩ := IntOp.andi_eq_one.mp h38
  exact real_of_abs_lt_inf (x8 i) (Host.reduce_andi_all _ _ _ _ ix0 h37 i)

end Cert.Sage.Finite

end
-- ==== Proof.lean ====
/-
  A three-layer mean-aggregating graph convolution (two dense layers with a hyperbolic tangent, a last affine layer) over
  100 000 nodes and 1 600 000 edges, computed by four row-blocked launches among gather and scatter-add host operations,
  against the same network written directly in host operations.

  Over the extended reals narrowing an operand to a shorter float format is the identity and a matrix product accumulated
  from zero is the plain contraction, so the first two layers are the same function of the same neighbour sums and degrees
  on both sides.  The last layer differs in arrangement: one side multiplies the second layer's table by the neighbour
  weights and then sums each node's neighbours' 64-wide rows and divides by the degree floored at one; the other sums the
  128-wide rows, divides, and multiplies afterwards.  The two are equal because every number involved is real — the table
  holds hyperbolic tangents, the degree is a count, and the weights are finite by the precondition — so the sum over a
  node's edges and the sum over the shared axis may be interchanged.  With an infinite weight the claim would fail
  (`(⊤ + ⊥) / d` against `0 · ⊤`), which is where the precondition is used.

  The three frames: the two kernel programs' are the generated frame certificates; the reference's is its generated run
  with the result dropped.  No operation was rewritten in idealizing the kernel, so nothing is owed for that conjunct.
-/
import proofs.«131360_j60610578481667_2_alg».proof.Defs
import proofs.«131360_j60610578481667_2_alg».proof.Proof.Gen.Kernel
import proofs.«131360_j60610578481667_2_alg».proof.Proof.Gen.Kernel.Skeleton
import proofs.«131360_j60610578481667_2_alg».proof.Proof.Gen.Kernel.Launch
import proofs.«131360_j60610578481667_2_alg».proof.Proof.Gen.Kernel.Points
import proofs.«131360_j60610578481667_2_alg».proof.Proof.Gen.Kernel.Frame
import proofs.«131360_j60610578481667_2_alg».proof.Proof.Gen.KernelIdeal
import proofs.«131360_j60610578481667_2_alg».proof.Proof.Gen.KernelIdeal.Skeleton
import proofs.«131360_j60610578481667_2_alg».proof.Proof.Gen.KernelIdeal.Launch
import proofs.«131360_j60610578481667_2_alg».proof.Proof.Gen.KernelIdeal.Points
import proofs.«131360_j60610578481667_2_alg».proof.Proof.Gen.KernelIdeal.Frame
import proofs.«131360_j60610578481667_2_alg».proof.Proof.Gen.ReferenceIdeal
import proofs.«131360_j60610578481667_2_alg».proof.Proof.Gen.Pre_finite_inputs
import proofs.«131360_j60610578481667_2_alg».proof.Proof.Gen.ReferenceIdeal.Run
import proofs.«131360_j60610578481667_2_alg».proof.Proof.Gen.ReferenceIdeal.Read
import proofs.«131360_j60610578481667_2_alg».proof.Proof.KernelValue
import proofs.«131360_j60610578481667_2_alg».proof.Proof.RefValue
import proofs.«131360_j60610578481667_2_alg».proof.Proof.Finite
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten in idealizing the kernel. -/
theorem preserves : Cert.preserves_Kernel_KernelIdeal := trivial

/-- From memories that agree on the arguments both programs end with the network of the arguments in their result buffers:
    the kernel's by following its seven segments, the reference's by reading its stages, the two arrangements of the last
    layer equal because the neighbour weights are real under the precondition. -/
theorem algebraic : Cert.algebraic_KernelIdeal_ReferenceIdeal := by
  intro m ρ m' ρ' hpre hagree
  refine ⟨_, Cert.Sage.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v77_eq, a0, a1, a2, a3, a4, a5, a6, a7, a8, a9, a10]
  exact Cert.Sage.RefValue.ref_eq _ _ _ _ _ _ _ _ _ _ _
    (fun i => Cert.Sage.Finite.wl2_real _ _ _ _ _ _ _ _ _ _ _ (hpre c) i)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
